-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x128 : Shape := ⟨2, ![8192, 128]⟩
abbrev S8192x1 : Shape := ⟨2, ![8192, 1]⟩
abbrev S_ : Shape := ⟨0, ![]⟩
abbrev S8192 : Shape := ⟨1, ![8192]⟩

class Facts : Prop where
  bcast_S_S8192x128 : S_.BroadcastsInDim S8192x128 (![] : Fin 0 → Fin S8192x128.rank)
  reducesTo_S8192x128_S_d0_1 : S8192x128.ReducesTo [0, 1] S_
  h_S_ : 0 < S_.numel
  reducesTo_S8192x128_S8192_d1 : S8192x128.ReducesTo [1] S8192
  bcast_S_S8192 : S_.BroadcastsInDim S8192 (![] : Fin 0 → Fin S8192.rank)
  reducesTo_S8192_S_d0 : S8192.ReducesTo [0] S_

variable [Facts]

def fn {F : FTy → Type} [FloatOps F] (main_arg0 : FVec F S8192x128 .f32) (main_arg1 : IVec S8192x1 32) : IVec S_ 1 :=
  let main_v0 : FVec F S8192x128 .f32 := Host.absf main_arg0
  let main_cst : FVec F S_ .f32 := constant S_ .f32 0x7F800000#32
  let main_v1 : FVec F S8192x128 .f32 := broadcastInDim S8192x128 ![] bcast_S_S8192x128 main_cst
  let main_v2 : IVec S8192x128 1 := cmpf .olt main_v0 main_v1
  let main_c : IVec S_ 1 := constantI S_ 1 1#1
  let main_v3 : IVec S_ 1 := (fun x v => Host.reduce IntOp.andi x v reducesTo_S8192x128_S_d0_1 h_S_) main_v2 main_c
  let main_v4 : FVec F S8192x128 .f32 := mulf main_arg0 main_arg0
  let main_cst_0 : FVec F S_ .f32 := constant S_ .f32 0x00000000#32
  let main_v5 : FVec F S8192 .f32 := (fun x v => Host.reduceAdd x v reducesTo_S8192x128_S8192_d1 h_S_) main_v4 main_cst_0
  let main_cst_1 : FVec F S_ .f32 := constant S_ .f32 0x00000000#32
  let main_v6 : FVec F S8192 .f32 := broadcastInDim S8192 ![] bcast_S_S8192 main_cst_1
  let main_v7 : IVec S8192 1 := cmpf .ogt main_v5 main_v6
  let main_c_2 : IVec S_ 1 := constantI S_ 1 1#1
  let main_v8 : IVec S_ 1 := (fun x v => Host.reduce IntOp.andi x v reducesTo_S8192_S_d0 h_S_) main_v7 main_c_2
  let main_v9 : IVec S_ 1 := andi main_v3 main_v8
  main_v9
-- ==== Kernel.lean ====
abbrev S8192x128 : Shape := ⟨2, ![8192, 128]⟩
abbrev S8192x1 : Shape := ⟨2, ![8192, 1]⟩
abbrev S8192 : Shape := ⟨1, ![8192]⟩
abbrev S_ : Shape := ⟨0, ![]⟩
abbrev S1x8192 : Shape := ⟨2, ![1, 8192]⟩
abbrev S256x1 : Shape := ⟨2, ![256, 1]⟩
abbrev S256x128 : Shape := ⟨2, ![256, 128]⟩
abbrev S2048x128 : Shape := ⟨2, ![2048, 128]⟩
abbrev S1x2048 : Shape := ⟨2, ![1, 2048]⟩
abbrev S256x2048 : Shape := ⟨2, ![256, 2048]⟩
abbrev S256 : Shape := ⟨1, ![256]⟩

abbrev nBuf : Space → Nat
  | .hbm => 27
  | .vmem => 6
  | .smem => 0
  | _ => 0

abbrev bufTy : (tb : Table) → Fin (tcTables nBuf tb) → BufTy
  | .hbm, ⟨0, _⟩ => ⟨S8192x128, .f32⟩
  | .hbm, ⟨1, _⟩ => ⟨S8192x1, .i32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S8192x128, .bf16⟩
  | .hbm, ⟨11, _⟩ => ⟨S8192x1, .i32⟩
  | .hbm, ⟨12, _⟩ => ⟨S1x8192, .i32⟩
  | .hbm, ⟨13, _⟩ => ⟨S8192x1, .f32⟩
  | .hbm, ⟨14, _⟩ => ⟨S8192, .f32⟩
  | .hbm, ⟨15, _⟩ => ⟨S_, .f32⟩
  | .hbm, ⟨16, _⟩ => ⟨S8192, .f32⟩
  | .hbm, ⟨17, _⟩ => ⟨S8192, .i1⟩
  | .hbm, ⟨18, _⟩ => ⟨S8192, .i32⟩
  | .hbm, ⟨19, _⟩ => ⟨S_, .i32⟩
  | .hbm, ⟨20, _⟩ => ⟨S_, .i32⟩
  | .hbm, ⟨21, _⟩ => ⟨S_, .f32⟩
  | .hbm, ⟨22, _⟩ => ⟨S_, .f32⟩
  | .hbm, ⟨23, _⟩ => ⟨S_, .i32⟩
  | .hbm, ⟨24, _⟩ => ⟨S_, .i32⟩
  | .hbm, ⟨25, _⟩ => ⟨S_, .f32⟩
  | .hbm, ⟨26, _⟩ => ⟨S_, .f32⟩
  | .local _ .vmem, ⟨0, _⟩ => ⟨S8192x128, .bf16⟩
  | .local _ .vmem, ⟨1, _⟩ => ⟨S256x1, .i32⟩
  | .local _ .vmem, ⟨2, _⟩ => ⟨S256x1, .i32⟩
  | .local _ .vmem, ⟨3, _⟩ => ⟨S1x8192, .i32⟩
  | .local _ .vmem, ⟨4, _⟩ => ⟨S256x1, .f32⟩
  | .local _ .vmem, ⟨5, _⟩ => ⟨S256x1, .f32⟩
  | _, _ => ⟨S8192x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_cst_0 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_c : Ref sig .tc := ⟨.hbm, 19, rfl⟩
abbrev main_v15 : Ref sig .tc := ⟨.hbm, 20, rfl⟩
abbrev main_cst_1 : Ref sig .tc := ⟨.hbm, 21, rfl⟩
abbrev main_v16 : Ref sig .tc := ⟨.hbm, 22, rfl⟩
abbrev main_c_2 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem1_0 : DmaSem sig := 1
abbrev cc0_sem1_1 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![32], ![false]⟩

def k0_mult1 (i : grid0.Coords) : BitVec 32 :=
  let arg0 : BitVec 32 := BitVec.ofNat 32 (i 0).val
  let c256_i32 : BitVec 32 := 256#32
  let v0 : BitVec 32 := Scalar.muli arg0 c256_i32
  v0
def k0_off1 (i : grid0.Coords) : Fin 2 → Nat :=
  let arg0 : BitVec 32 := BitVec.ofNat 32 (i 0).val
  let c256_i32 : BitVec 32 := 256#32
  let v0 : BitVec 32 := Scalar.muli arg0 c256_i32
  let v1 : BitVec 32 := v0
  let v2 : Index := Scalar.indexCast v1
  let c0 : Index := 0#32
  ![v2.toNat, 0]
@[reducible] def k0_t1_loop : Scf.Loop 32 :=
  let c0_i32 : BitVec 32 := 0#32
  let c4_i32 : BitVec 32 := 4#32
  let v12 : BitVec 32 := Scalar.addi c0_i32 c4_i32
  let c1_i32 : BitVec 32 := 1#32
  ⟨c0_i32, v12, c1_i32⟩
def k0_mult2 (k0_t1 : Fin k0_t1_loop.trips) : BitVec 32 :=
  let c0_i32 : BitVec 32 := 0#32
  let c1_i32 : BitVec 32 := 1#32
  let arg5 : BitVec 32 := Scf.iv c0_i32 c1_i32 k0_t1
  let c2048_i32 : BitVec 32 := 2048#32
  let v33 : BitVec 32 := Scalar.muli arg5 c2048_i32
  v33
def k0_off2 (k0_t1 : Fin k0_t1_loop.trips) : Fin 2 → Nat :=
  let c0_i32 : BitVec 32 := 0#32
  let c1_i32 : BitVec 32 := 1#32
  let arg5 : BitVec 32 := Scf.iv c0_i32 c1_i32 k0_t1
  let c2048_i32 : BitVec 32 := 2048#32
  let v33 : BitVec 32 := Scalar.muli arg5 c2048_i32
  let v34 : BitVec 32 := v33
  let v35 : Index := Scalar.indexCast v34
  let c0_13 : Index := 0#32
  ![v35.toNat, 0]
def k0_off3 (k0_t1 : Fin k0_t1_loop.trips) : Fin 2 → Nat :=
  let c0_14 : Index := 0#32
  let c0_i32 : BitVec 32 := 0#32
  let c1_i32 : BitVec 32 := 1#32
  let arg5 : BitVec 32 := Scf.iv c0_i32 c1_i32 k0_t1
  let c2048_i32 : BitVec 32 := 2048#32
  let v33 : BitVec 32 := Scalar.muli arg5 c2048_i32
  let v34 : BitVec 32 := v33
  let v38 : Index := Scalar.indexCast v34
  ![0, v38.toNat]
def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S8192x128 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S256x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x8192 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x1 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  shapeCasts_S8192x1_S8192 : S8192x1.ShapeCasts S8192
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bitsLt_bf16_f32 : FTy.bits .bf16 < FTy.bits .f32
  shapeCasts_S8192_S8192x1 : S8192.ShapeCasts S8192x1
  shapeCasts_S8192_S1x8192 : S8192.ShapeCasts S1x8192
  h_S256x128 : 0 < S256x128.numel
  shapeCasts_S256x128_S256x128 : S256x128.ShapeCasts S256x128
  inb_S256x1_S256x1_0_0 : ∀ a, (![0, 0] : Fin 2 → Nat) a + S256x1.size a ≤ S256x1.size a
  h_S256x1 : 0 < S256x1.numel
  shapeCasts_S256x1_S256x1 : S256x1.ShapeCasts S256x1
  iota_S256x1_d0_w32 : S256x1.Iotas .tc 32 [0]
  h_S2048x128 : 0 < S2048x128.numel
  shapeCasts_S2048x128_S2048x128 : S2048x128.ShapeCasts S2048x128
  h_S1x2048 : 0 < S1x2048.numel
  shapeCasts_S1x2048_S1x2048 : S1x2048.ShapeCasts S1x2048
  broadcasts_S256x1_S256x2048 : S256x1.Broadcasts S256x2048
  broadcasts_S1x2048_S256x2048 : S1x2048.Broadcasts S256x2048
  iota_S1x2048_d1_w32 : S1x2048.Iotas .tc 32 [1]
  reduces_S256x2048_S256 : S256x2048.Reduces [1] S256
  shapeCasts_S256_S256x1 : S256.ShapeCasts S256x1
  bcast_S_S8192 : S_.BroadcastsInDim S8192 (![] : Fin 0 → Fin S8192.rank)
  natLt_1_32 : 1 < 32
  reducesTo_S8192_S_d0 : S8192.ReducesTo [0] S_
  dot_S256x128_S2048x128_S256x2048_1_1_0_0_n_n_wf : DotDims.WF S256x128 S2048x128 S256x2048 [1] [1] [0] [0] [] []
  hrank0 : 0 < grid0.rank
  k0_mult1_dvd : ∀ i : grid0.Coords, 256 ∣ (k0_mult1 i).toNat
  k0_off1_inb : ∀ i : grid0.Coords, ∀ a, (k0_off1 i) a + S256x128.size a ≤ S8192x128.size a
  k0_t1_ok : k0_t1_loop.OK
  k0_mult2_dvd : ∀ k0_t1 : Fin k0_t1_loop.trips, 2048 ∣ (k0_mult2 k0_t1).toNat
  k0_off2_inb : ∀ k0_t1 : Fin k0_t1_loop.trips, ∀ a, (k0_off2 k0_t1) a + S2048x128.size a ≤ S8192x128.size a
  k0_off3_inb : ∀ k0_t1 : Fin k0_t1_loop.trips, ∀ a, (k0_off3 k0_t1) a + S1x2048.size a ≤ S1x8192.size a
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S8192x128.size a ≤ S8192x128.size a
  hwx0_0 : ∀ i : grid0.Coords, EltTy.bits .bf16 = 32 ∨ (Rect.block (s := S8192x128) S8192x128.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x1.size a ≤ S8192x1.size a
  hwx0_1 : ∀ i : grid0.Coords, EltTy.bits .i32 = 32 ∨ (Rect.block (s := S8192x1) S256x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x8192.size a ≤ S1x8192.size a
  hwx0_2 : ∀ i : grid0.Coords, EltTy.bits .i32 = 32 ∨ (Rect.block (s := S1x8192) S1x8192.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S256x1.size a ≤ S8192x1.size a
  hwx0_3 : ∀ i : grid0.Coords, EltTy.bits .f32 = 32 ∨ (Rect.block (s := S8192x1) S256x1.size (cc0_transform_3 i) (hinb0_3 i)).WholeWords (EltTy.packing .f32)

variable [Facts₀]

def dot_S256x128_S2048x128_S256x2048_1_1_0_0_n_n : DotDims S256x128 S2048x128 S256x2048 where
  lhsContracting := [1]
  rhsContracting := [1]
  lhsNonContracting := [0]
  rhsNonContracting := [0]
  lhsBatch := []
  rhsBatch := []
  wf := dot_S256x128_S2048x128_S256x2048_1_1_0_0_n_n_wf

abbrev win0_0 : Pipeline.Window sig grid0 :=
  Pipeline.Window.ofSpec (Memref.whole main_v7) S8192x128.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_v8) S256x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x8192.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S256x1.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S8192x128 : Shape := ⟨2, ![8192, 128]⟩
abbrev S8192x1 : Shape := ⟨2, ![8192, 1]⟩
abbrev S8192 : Shape := ⟨1, ![8192]⟩
abbrev S_ : Shape := ⟨0, ![]⟩
abbrev S1x8192 : Shape := ⟨2, ![1, 8192]⟩
abbrev S8192x8192 : Shape := ⟨2, ![8192, 8192]⟩
abbrev S128x8192 : Shape := ⟨2, ![128, 8192]⟩

abbrev nBuf : Space → Nat
  | .hbm => 94
  | .vmem => 0
  | .smem => 0
  | _ => 0

abbrev bufTy : (tb : Table) → Fin (tcTables nBuf tb) → BufTy
  | .hbm, ⟨0, _⟩ => ⟨S8192x128, .f32⟩
  | .hbm, ⟨1, _⟩ => ⟨S8192x1, .i32⟩
  | .hbm, ⟨2, _⟩ => ⟨S8192, .i32⟩
  | .hbm, ⟨3, _⟩ => ⟨S8192x128, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S8192x1, .f32⟩
  | .hbm, ⟨8, _⟩ => ⟨S8192x128, .f32⟩
  | .hbm, ⟨9, _⟩ => ⟨S8192x128, .f32⟩
  | .hbm, ⟨10, _⟩ => ⟨S8192x128, .f32⟩
  | .hbm, ⟨11, _⟩ => ⟨S_, .f32⟩
  | .hbm, ⟨12, _⟩ => ⟨S8192, .f32⟩
  | .hbm, ⟨13, _⟩ => ⟨S8192x1, .f32⟩
  | .hbm, ⟨14, _⟩ => ⟨S1x8192, .f32⟩
  | .hbm, ⟨15, _⟩ => ⟨S8192x8192, .f32⟩
  | .hbm, ⟨16, _⟩ => ⟨S8192x8192, .f32⟩
  | .hbm, ⟨17, _⟩ => ⟨S8192x8192, .f32⟩
  | .hbm, ⟨18, _⟩ => ⟨S128x8192, .f32⟩
  | .hbm, ⟨19, _⟩ => ⟨S8192x8192, .f32⟩
  | .hbm, ⟨20, _⟩ => ⟨S_, .f32⟩
  | .hbm, ⟨21, _⟩ => ⟨S8192x8192, .f32⟩
  | .hbm, ⟨22, _⟩ => ⟨S8192x8192, .f32⟩
  | .hbm, ⟨23, _⟩ => ⟨S8192x8192, .f32⟩
  | .hbm, ⟨24, _⟩ => ⟨S_, .f32⟩
  | .hbm, ⟨25, _⟩ => ⟨S8192x8192, .f32⟩
  | .hbm, ⟨26, _⟩ => ⟨S8192x8192, .f32⟩
  | .hbm, ⟨27, _⟩ => ⟨S_, .f32⟩
  | .hbm, ⟨28, _⟩ => ⟨S8192x8192, .f32⟩
  | .hbm, ⟨29, _⟩ => ⟨S8192x8192, .i1⟩
  | .hbm, ⟨30, _⟩ => ⟨S_, .f32⟩
  | .hbm, ⟨31, _⟩ => ⟨S8192x8192, .f32⟩
  | .hbm, ⟨32, _⟩ => ⟨S8192x8192, .i1⟩
  | .hbm, ⟨33, _⟩ => ⟨S_, .f32⟩
  | .hbm, ⟨34, _⟩ => ⟨S_, .f32⟩
  | .hbm, ⟨35, _⟩ => ⟨S8192x8192, .f32⟩
  | .hbm, ⟨36, _⟩ => ⟨S8192x8192, .f32⟩
  | .hbm, ⟨37, _⟩ => ⟨S8192x8192, .f32⟩
  | .hbm, ⟨38, _⟩ => ⟨S_, .f32⟩
  | .hbm, ⟨39, _⟩ => ⟨S_, .f32⟩
  | .hbm, ⟨40, _⟩ => ⟨S8192x8192, .f32⟩
  | .hbm, ⟨41, _⟩ => ⟨S8192x8192, .f32⟩
  | .hbm, ⟨42, _⟩ => ⟨S8192x1, .i32⟩
  | .hbm, ⟨43, _⟩ => ⟨S1x8192, .i32⟩
  | .hbm, ⟨44, _⟩ => ⟨S8192x8192, .i32⟩
  | .hbm, ⟨45, _⟩ => ⟨S8192x8192, .i32⟩
  | .hbm, ⟨46, _⟩ => ⟨S8192x8192, .i1⟩
  | .hbm, ⟨47, _⟩ => ⟨S8192x8192, .i32⟩
  | .hbm, ⟨48, _⟩ => ⟨S8192x8192, .i32⟩
  | .hbm, ⟨49, _⟩ => ⟨S_, .i32⟩
  | .hbm, ⟨50, _⟩ => ⟨S8192x8192, .i32⟩
  | .hbm, ⟨51, _⟩ => ⟨S8192x8192, .i32⟩
  | .hbm, ⟨52, _⟩ => ⟨S8192x8192, .i1⟩
  | .hbm, ⟨53, _⟩ => ⟨S8192x8192, .i1⟩
  | .hbm, ⟨54, _⟩ => ⟨S8192x8192, .i1⟩
  | .hbm, ⟨55, _⟩ => ⟨S8192x8192, .i1⟩
  | .hbm, ⟨56, _⟩ => ⟨S_, .f32⟩
  | .hbm, ⟨57, _⟩ => ⟨S8192x8192, .f32⟩
  | .hbm, ⟨58, _⟩ => ⟨S8192x8192, .f32⟩
  | .hbm, ⟨59, _⟩ => ⟨S_, .f32⟩
  | .hbm, ⟨60, _⟩ => ⟨S8192, .f32⟩
  | .hbm, ⟨61, _⟩ => ⟨S_, .f32⟩
  | .hbm, ⟨62, _⟩ => ⟨S8192x8192, .f32⟩
  | .hbm, ⟨63, _⟩ => ⟨S8192x8192, .f32⟩
  | .hbm, ⟨64, _⟩ => ⟨S_, .f32⟩
  | .hbm, ⟨65, _⟩ => ⟨S8192, .f32⟩
  | .hbm, ⟨66, _⟩ => ⟨S_, .i1⟩
  | .hbm, ⟨67, _⟩ => ⟨S8192, .i1⟩
  | .hbm, ⟨68, _⟩ => ⟨S_, .i1⟩
  | .hbm, ⟨69, _⟩ => ⟨S8192, .i1⟩
  | .hbm, ⟨70, _⟩ => ⟨S8192, .i1⟩
  | .hbm, ⟨71, _⟩ => ⟨S8192, .f32⟩
  | .hbm, ⟨72, _⟩ => ⟨S_, .f32⟩
  | .hbm, ⟨73, _⟩ => ⟨S8192, .f32⟩
  | .hbm, ⟨74, _⟩ => ⟨S8192, .f32⟩
  | .hbm, ⟨75, _⟩ => ⟨S_, .f32⟩
  | .hbm, ⟨76, _⟩ => ⟨S8192, .f32⟩
  | .hbm, ⟨77, _⟩ => ⟨S8192, .f32⟩
  | .hbm, ⟨78, _⟩ => ⟨S_, .f32⟩
  | .hbm, ⟨79, _⟩ => ⟨S_, .f32⟩
  | .hbm, ⟨80, _⟩ => ⟨S8192, .f32⟩
  | .hbm, ⟨81, _⟩ => ⟨S8192, .f32⟩
  | .hbm, ⟨82, _⟩ => ⟨S_, .f32⟩
  | .hbm, ⟨83, _⟩ => ⟨S8192, .f32⟩
  | .hbm, ⟨84, _⟩ => ⟨S8192, .i1⟩
  | .hbm, ⟨85, _⟩ => ⟨S8192, .i32⟩
  | .hbm, ⟨86, _⟩ => ⟨S_, .i32⟩
  | .hbm, ⟨87, _⟩ => ⟨S_, .i32⟩
  | .hbm, ⟨88, _⟩ => ⟨S_, .f32⟩
  | .hbm, ⟨89, _⟩ => ⟨S_, .f32⟩
  | .hbm, ⟨90, _⟩ => ⟨S_, .i32⟩
  | .hbm, ⟨91, _⟩ => ⟨S_, .i32⟩
  | .hbm, ⟨92, _⟩ => ⟨S_, .f32⟩
  | .hbm, ⟨93, _⟩ => ⟨S_, .f32⟩
  | _, _ => ⟨S8192x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_cst : Ref sig .tc := ⟨.hbm, 4, rfl⟩
abbrev main_call0_v1 : Ref sig .tc := ⟨.hbm, 5, rfl⟩
abbrev main_call0_v2 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_0 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_v16 : Ref sig .tc := ⟨.hbm, 25, rfl⟩
abbrev main_v17 : Ref sig .tc := ⟨.hbm, 26, rfl⟩
abbrev main_cst_2 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_call1_v0 : Ref sig .tc := ⟨.hbm, 34, rfl⟩
abbrev main_call1_v1 : Ref sig .tc := ⟨.hbm, 35, rfl⟩
abbrev main_v22 : Ref sig .tc := ⟨.hbm, 36, rfl⟩
abbrev main_v23 : Ref sig .tc := ⟨.hbm, 37, rfl⟩
abbrev main_cst_5 : Ref sig .tc := ⟨.hbm, 38, rfl⟩
abbrev main_call2_v0 : Ref sig .tc := ⟨.hbm, 39, rfl⟩
abbrev main_call2_v1 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_cst_6 : Ref sig .tc := ⟨.hbm, 56, rfl⟩
abbrev main_call3_v0 : Ref sig .tc := ⟨.hbm, 57, rfl⟩
abbrev main_v38 : Ref sig .tc := ⟨.hbm, 58, rfl⟩
abbrev main_cst_7 : Ref sig .tc := ⟨.hbm, 59, rfl⟩
abbrev main_v39 : Ref sig .tc := ⟨.hbm, 60, rfl⟩
abbrev main_cst_8 : Ref sig .tc := ⟨.hbm, 61, rfl⟩
abbrev main_call4_v0 : Ref sig .tc := ⟨.hbm, 62, rfl⟩
abbrev main_v40 : Ref sig .tc := ⟨.hbm, 63, rfl⟩
abbrev main_cst_9 : Ref sig .tc := ⟨.hbm, 64, rfl⟩
abbrev main_v41 : Ref sig .tc := ⟨.hbm, 65, rfl⟩
abbrev main_c_10 : Ref sig .tc := ⟨.hbm, 66, rfl⟩
abbrev main_v42 : Ref sig .tc := ⟨.hbm, 67, rfl⟩
abbrev main_c_11 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_cst_12 : Ref sig .tc := ⟨.hbm, 72, rfl⟩
abbrev main_v46 : Ref sig .tc := ⟨.hbm, 73, rfl⟩
abbrev main_v47 : Ref sig .tc := ⟨.hbm, 74, rfl⟩
abbrev main_cst_13 : Ref sig .tc := ⟨.hbm, 75, rfl⟩
abbrev main_v48 : Ref sig .tc := ⟨.hbm, 76, rfl⟩
abbrev main_v49 : Ref sig .tc := ⟨.hbm, 77, rfl⟩
abbrev main_cst_14 : Ref sig .tc := ⟨.hbm, 78, rfl⟩
abbrev main_call5_v0 : Ref sig .tc := ⟨.hbm, 79, rfl⟩
abbrev main_call5_v1 : Ref sig .tc := ⟨.hbm, 80, rfl⟩
abbrev main_v50 : Ref sig .tc := ⟨.hbm, 81, rfl⟩
abbrev main_cst_15 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_c_16 : Ref sig .tc := ⟨.hbm, 86, rfl⟩
abbrev main_v54 : Ref sig .tc := ⟨.hbm, 87, rfl⟩
abbrev main_cst_17 : Ref sig .tc := ⟨.hbm, 88, rfl⟩
abbrev main_v55 : Ref sig .tc := ⟨.hbm, 89, rfl⟩
abbrev main_c_18 : Ref sig .tc := ⟨.hbm, 90, rfl⟩
abbrev main_v56 : Ref sig .tc := ⟨.hbm, 91, rfl⟩
abbrev main_v57 : Ref sig .tc := ⟨.hbm, 92, rfl⟩
abbrev main_v58 : Ref sig .tc := ⟨.hbm, 93, rfl⟩

abbrev nD : Nat := 1
abbrev τ : Topo := Topo.v7x

variable {F : FTy → Type} [FloatOps F]

class Facts₀ : Prop where
  shapeCasts_S8192x1_S8192 : S8192x1.ShapeCasts S8192
  reducesTo_S8192x128_S8192_d1 : S8192x128.ReducesTo [1] S8192
  h_S_ : 0 < S_.numel
  bcast_S8192_S8192x1_0 : S8192.BroadcastsInDim S8192x1 (![0] : Fin 1 → Fin S8192x1.rank)
  bcast_S8192x1_S8192x128_0_1 : S8192x1.BroadcastsInDim S8192x128 (![0, 1] : Fin 2 → Fin S8192x128.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x128_S128x8192_1_0 : S8192x128.Transposes [1, 0] S128x8192
  bcast_S_S8192x8192 : S_.BroadcastsInDim S8192x8192 (![] : Fin 0 → Fin S8192x8192.rank)
  reducesTo_S8192x8192_S8192_d1 : S8192x8192.ReducesTo [1] S8192
  bcast_S_S8192 : S_.BroadcastsInDim S8192 (![] : Fin 0 → Fin S8192.rank)
  natLt_1_32 : 1 < 32
  reducesTo_S8192_S_d0 : S8192.ReducesTo [0] S_
  dot_S8192x128_S128x8192_S8192x8192_1_0_0_1_n_n_wf : DotDims.WF S8192x128 S128x8192 S8192x8192 [1] [0] [0] [1] [] []

variable [Facts₀]

def dot_S8192x128_S128x8192_S8192x8192_1_0_0_1_n_n : DotDims S8192x128 S128x8192 S8192x8192 where
  lhsContracting := [1]
  rhsContracting := [0]
  lhsNonContracting := [0]
  rhsNonContracting := [1]
  lhsBatch := []
  rhsBatch := []
  wf := dot_S8192x128_S128x8192_S8192x8192_1_0_0_1_n_n_wf

class Facts : Prop extends Facts₀ where

variable [Facts]
-- ==== Proof.Spec.lean ====
import Idealize.ShloMosaic.PureOps.Ideal

/-!
  The triplet-margin loss with hardest-positive / hardest-negative mining over unit-normalised rows, row by row,
  in the two arrangements that are compared.

  For an array `a` of 8192 rows of 128 extended reals and 8192 integer labels, row `i` of the normalised array is
  `a i / ‖a i‖`.  For the anchor `i`, the positives are the other rows with the label of `i`, the negatives the
  rows with another label.

  * `refRow`: distances `√(max (|x i|² + |x j|² - 2 x i · x j) 0)` are taken first, the hardest positive is the largest
    distance over the positives, the hardest negative the smallest over the negatives, and the anchor counts when it has
    both a positive and a negative.
  * `kerRow`: squared distances `max (2 - 2 x i · x j) 0` are scanned in four stretches of 2048 columns, a running
    maximum / minimum carried from finite stand-ins for the infinities, the square root is taken of the two extremes
    only, and the anchor counts when the two extremes stayed away from the stand-ins.

  Both give `max (hardest positive - hardest negative + margin) 0` for an anchor that counts, and `0` otherwise.
-/

noncomputable section

namespace Cert.Triplet

open Idealize.ShloMosaic

/-- The finite stand-in for `-∞`, `-1e30` as an f32. -/
abbrev NEG : EReal := Ideal.ofBits .f32 0xF149F2CA#32
/-- The finite stand-in for `+∞`, `1e30` as an f32. -/
abbrev POS : EReal := Ideal.ofBits .f32 0x7149F2CA#32
/-- Half the negative stand-in, `-5e29` as an f32. -/
abbrev NEGH : EReal := Ideal.ofBits .f32 0xF0C9F2CA#32
/-- Half the positive stand-in, `5e29` as an f32. -/
abbrev POSH : EReal := Ideal.ofBits .f32 0x70C9F2CA#32
/-- The margin, `0.05` as an f32. -/
abbrev MARGIN : EReal := Ideal.ofBits .f32 0x3D4CCCCD#32
/-- `2` as an f32. -/
abbrev TWO : EReal := Ideal.ofBits .f32 0x40000000#32
/-- `1` as an f32. -/
abbrev ONE : EReal := Ideal.ofBits .f32 0x3F800000#32
/-- `0` as an f32. -/
abbrev ZERO : EReal := Ideal.ofBits .f32 0x00000000#32

/-- The squared norm of row `i`, summed from the zero word. -/
def sqn (x : Fin 8192 → Fin 128 → EReal) (i : Fin 8192) : EReal := ZERO + ∑ k : Fin 128, x i k * x i k

/-- Row `i` divided by its norm. -/
def xn (a : Fin 8192 → Fin 128 → EReal) (i : Fin 8192) (k : Fin 128) : EReal :=
  Ideal.div (a i k) (Ideal.sqrt (sqn a i))

/-- The inner product of rows `i` and `j`. -/
def dot (x : Fin 8192 → Fin 128 → EReal) (i j : Fin 8192) : EReal := ∑ k : Fin 128, x i k * x j k

/-- `j` is a positive of the anchor `i`: same label, another row. -/
def posM (lab : Fin 8192 → BitVec 32) (i j : Fin 8192) : Prop := lab i = lab j ∧ i ≠ j
/-- `j` is a negative of the anchor `i`: another label. -/
def negM (lab : Fin 8192 → BitVec 32) (i j : Fin 8192) : Prop := lab i ≠ lab j

instance (lab : Fin 8192 → BitVec 32) (i j : Fin 8192) : Decidable (posM lab i j) := by unfold posM; infer_instance
instance (lab : Fin 8192 → BitVec 32) (i j : Fin 8192) : Decidable (negM lab i j) := by unfold negM; infer_instance

/-! ### Distances first, over all columns at once -/

/-- The squared distance from the two squared norms and the inner product, clamped at zero. -/
def d2R (x : Fin 8192 → Fin 128 → EReal) (i j : Fin 8192) : EReal :=
  max ((sqn x i + sqn x j) - TWO * dot x i j) ZERO

/-- The distance, with the square root guarded at zero. -/
def distR (x : Fin 8192 → Fin 128 → EReal) (i j : Fin 8192) : EReal :=
  if ZERO < d2R x i j then Ideal.sqrt (if ZERO < d2R x i j then d2R x i j else ONE) else ZERO

/-- The anchor's loss, distances first. -/
def refRow (x : Fin 8192 → Fin 128 → EReal) (lab : Fin 8192 → BitVec 32) (i : Fin 8192) : EReal :=
  if (∃ j, posM lab i j) ∧ (∃ j, negM lab i j) then
    max (((⨆ j : Fin 8192, if posM lab i j then distR x i j else NEG)
          - (⨅ j : Fin 8192, if negM lab i j then distR x i j else POS)) + MARGIN) ZERO
  else ZERO

/-! ### Squared distances, in four stretches of columns -/

/-- Column `q` of stretch `c`. -/
def col (c : Fin 4) (q : Fin 2048) : Fin 8192 := ⟨2048 * c.val + q.val, by have := c.isLt; have := q.isLt; omega⟩

/-- The squared distance of unit rows, clamped at zero. -/
def d2K (x : Fin 8192 → Fin 128 → EReal) (i j : Fin 8192) : EReal :=
  max (TWO - TWO * dot x i j) ZERO

/-- The largest squared distance to a positive within stretch `c`. -/
def cpos (x : Fin 8192 → Fin 128 → EReal) (lab : Fin 8192 → BitVec 32) (i : Fin 8192) (c : Fin 4) : EReal :=
  ⨆ q : Fin 2048, if posM lab i (col c q) then d2K x i (col c q) else NEG

/-- The smallest squared distance to a negative within stretch `c`. -/
def cneg (x : Fin 8192 → Fin 128 → EReal) (lab : Fin 8192 → BitVec 32) (i : Fin 8192) (c : Fin 4) : EReal :=
  ⨅ q : Fin 2048, if negM lab i (col c q) then d2K x i (col c q) else POS

/-- The running maximum after the four stretches. -/
def hpK (x : Fin 8192 → Fin 128 → EReal) (lab : Fin 8192 → BitVec 32) (i : Fin 8192) : EReal :=
  max (max (max (max NEG (cpos x lab i 0)) (cpos x lab i 1)) (cpos x lab i 2)) (cpos x lab i 3)

/-- The running minimum after the four stretches. -/
def hnK (x : Fin 8192 → Fin 128 → EReal) (lab : Fin 8192 → BitVec 32) (i : Fin 8192) : EReal :=
  min (min (min (min POS (cneg x lab i 0)) (cneg x lab i 1)) (cneg x lab i 2)) (cneg x lab i 3)

/-- The anchor's loss from the two extremes of the squared distances. -/
def rowOfExtremes (hp hn : EReal) : EReal :=
  if NEGH < hp ∧ hn < POSH then
    max ((Ideal.sqrt (max hp ZERO) - Ideal.sqrt (max hn ZERO)) + MARGIN) ZERO
  else ZERO

/-- The anchor's loss, squared distances in stretches. -/
def kerRow (x : Fin 8192 → Fin 128 → EReal) (lab : Fin 8192 → BitVec 32) (i : Fin 8192) : EReal :=
  rowOfExtremes (hpK x lab i) (hnK x lab i)

end Cert.Triplet

end
-- ==== Proof.HostNorm.lean ====
import proofs.«114721_j26319559590784_2_alg».proof.Proof.Spec
import Idealize.ShloMosaic.Lib.Pipeline.Value
import Idealize.ShloMosaic.Lib.ValueIdx
import Idealize.ShloMosaic.PureOps.Ideal.Laws

/-!
  The host operations that prepare the rows, read at an index.

  Dividing an [8192, 128] array by the broadcast square root of its row sums of squares gives, at `(j, k)`, the entry
  `a j k / √(0 + ∑ k', a j k'²)`: the normalised row `xn`.  A narrowing of the float format is the identity on extended
  reals.  The labels, a column [8192, 1], flattened and laid again as a column or as a row, read back the label of
  their row or column.
-/

noncomputable section

namespace Cert.Triplet

open Idealize.ShloMosaic Idealize.ShloMosaic.ValueIdx

abbrev SA : Shape := ⟨2, ![8192, 128]⟩
abbrev SC : Shape := ⟨2, ![8192, 1]⟩
abbrev SW : Shape := ⟨2, ![1, 8192]⟩
abbrev SR : Shape := ⟨1, ![8192]⟩
abbrev S0 : Shape := ⟨0, ![]⟩

/-- The row sums of squares, from the zero word, at row `j`. -/
theorem rowsum_apply (a : FVec Ideal SA .f32) (hred : SA.ReducesTo [1] SR) (h0 : 0 < S0.numel) (j : Fin 8192) :
    Host.reduceAdd (F := Ideal) (mulf a a) (constant (F := Ideal) S0 .f32 0x00000000#32) hred h0 (ix1 j)
      = sqn (fun j k => a (ix2 j k)) j := by
  simp only [Host.reduceAdd, Ideal.hostReduceAdd_def]
  rw [Ideal.hostReduceAdd_single hred (by decide)]
  unfold sqn
  refine congrArg (_ + ·) (Finset.sum_congr rfl fun k _ => ?_)
  show a _ * a _ = a (ix2 j k) * a (ix2 j k)
  have e : (by decide : SA.Reduces [1] SR).lift (ix1 j) k = ix2 j k :=
    funext fun d => Fin.ext (by match d with | ⟨0, _⟩ => rfl | ⟨1, _⟩ => rfl)
  exact congrArg (fun i => a i * a i) e

/-- The normalised array at `(j, k)`. -/
theorem normalised_apply (a : FVec Ideal SA .f32) (hred : SA.ReducesTo [1] SR) (h0 : 0 < S0.numel)
    (hb1 : SR.BroadcastsInDim SC (![0] : Fin 1 → Fin SC.rank)) (hb2 : SC.BroadcastsInDim SA (![0, 1] : Fin 2 → Fin SA.rank))
    (hlt : FTy.bits .bf16 < FTy.bits .f32) (j : Fin 8192) (k : Fin 128) :
    (truncf (F := Ideal) .bf16 (Host.divf a (broadcastInDim SA ![0, 1] hb2 (Host.sqrt (broadcastInDim SC ![0] hb1
        (Host.reduceAdd (F := Ideal) (mulf a a) (constant (F := Ideal) S0 .f32 0x00000000#32) hred h0))))) hlt) (ix2 j k)
      = xn (fun j k => a (ix2 j k)) j k := by
  show Ideal.div (a (ix2 j k)) (broadcastInDim SA ![0, 1] hb2 (Host.sqrt (broadcastInDim SC ![0] hb1
        (Host.reduceAdd (F := Ideal) (mulf a a) (constant (F := Ideal) S0 .f32 0x00000000#32) hred h0))) (ix2 j k)) = _
  rw [broadcastInDim_apply _ hb2 _ (ix2 j k) (ix2 j (0 : Fin 1)) (fun d => match d with
    | ⟨0, _⟩ => by show j.val = if (8192 : Nat) = 1 then 0 else j.val; rw [if_neg (by decide)]
    | ⟨1, _⟩ => by show 0 = if (1 : Nat) = 1 then 0 else k.val; rw [if_pos rfl])]
  show Ideal.div (a (ix2 j k)) (Ideal.sqrt (broadcastInDim SC ![0] hb1
        (Host.reduceAdd (F := Ideal) (mulf a a) (constant (F := Ideal) S0 .f32 0x00000000#32) hred h0) (ix2 j (0 : Fin 1)))) = _
  rw [broadcastInDim_apply _ hb1 _ (ix2 j (0 : Fin 1)) (ix1 j) (fun d => match d with
    | ⟨0, _⟩ => by show j.val = if (8192 : Nat) = 1 then 0 else j.val; rw [if_neg (by decide)])]
  rw [rowsum_apply a hred h0 j]
  rfl

/-- The labels flattened and laid again as a column: the label of the row. -/
theorem labels_col_apply (l : IVec SC 32) (h1 : SC.ShapeCasts SR) (h2 : SR.ShapeCasts SC) (j : Fin 8192) :
    shapeCast SC (shapeCast SR l h1) h2 (ix2 j (0 : Fin 1)) = l (ix2 j (0 : Fin 1)) := by
  rw [shapeCast_apply _ h2 (ix2 j (0 : Fin 1)) (ix1 j) (by
    rewrite [Shape.rowMajor_val_two, Shape.rowMajor_val_one]; show j.val = j.val * 1 + 0; omega)]
  exact shapeCast_apply l h1 (ix1 j) (ix2 j (0 : Fin 1)) (by
    rewrite [Shape.rowMajor_val_two, Shape.rowMajor_val_one]; show j.val * 1 + 0 = j.val; omega)

/-- The labels flattened and laid as a row: the label of the column. -/
theorem labels_row_apply (l : IVec SC 32) (h1 : SC.ShapeCasts SR) (h3 : SR.ShapeCasts SW) (j : Fin 8192) :
    shapeCast SW (shapeCast SR l h1) h3 (ix2 (0 : Fin 1) j) = l (ix2 j (0 : Fin 1)) := by
  rw [shapeCast_apply _ h3 (ix2 (0 : Fin 1) j) (ix1 j) (by
    rewrite [Shape.rowMajor_val_two, Shape.rowMajor_val_one]; show j.val = 0 * 8192 + j.val; omega)]
  exact shapeCast_apply l h1 (ix1 j) (ix2 j (0 : Fin 1)) (by
    rewrite [Shape.rowMajor_val_two, Shape.rowMajor_val_one]; show j.val * 1 + 0 = j.val; omega)

end Cert.Triplet

end
-- ==== Proof.KerHost.lean ====
import proofs.«114721_j26319559590784_2_alg».proof.Proof.Gen.KernelIdeal.Frame
import proofs.«114721_j26319559590784_2_alg».proof.Proof.HostNorm
import Idealize.ShloMosaic.Lib.StableHlo.Run

/-!
  The arrays the kernel's region finds, and the mean that follows it.

  Before the region the host normalises the rows and lays the labels out as a column and as a row; after it the host
  flattens the per-anchor losses and averages the positive ones.
-/

noncomputable section

namespace Cert.Triplet

open Idealize.ShloMosaic Idealize.ShloMosaic.TcCoe Idealize.ShloMosaic.ValueIdx Idealize.SL.Sem Idealize.ShloMosaic.StableHlo
open Cert.KernelIdeal Cert.KernelIdeal.Gen

variable (m : (ℓ : Loc nD τ sig) → Buf (Elt Ideal) ℓ)

/-- The rows as the region finds them: the argument's rows divided by their norms. -/
theorem V_rows (c : Dev nD) (j : Fin 8192) (k : Fin 128) :
    (V (F := Ideal) m c main_v7 : S8192x128.Idx → EReal) (ix2 j k)
      = xn (fun j k => (m ((c : Thread nD τ).loc main_arg0) : S8192x128.Idx → EReal) (ix2 j k)) j k := by
  have e : (V (F := Ideal) m c main_v7 : S8192x128.Idx → EReal)
      = truncf (F := Ideal) .bf16 (Host.divf (m ((c : Thread nD τ).loc main_arg0)) (broadcastInDim S8192x128 ![0, 1] bcast_S8192x1_S8192x128_0_1
          (Host.sqrt (broadcastInDim S8192x1 ![0] bcast_S8192_S8192x1_0 (Host.reduceAdd (F := Ideal)
            (mulf (m ((c : Thread nD τ).loc main_arg0)) (m ((c : Thread nD τ).loc main_arg0)))
            (constant (F := Ideal) S_ .f32 0x00000000#32) reducesTo_S8192x128_S8192_d1 h_S_))))) bitsLt_bf16_f32 := by
    show StableHlo.after hostOps0 (fun b => m (c, b)) (Proc.devRef .tc main_v7) = _
    after_results
  rw [e]
  exact normalised_apply _ reducesTo_S8192x128_S8192_d1 h_S_ bcast_S8192_S8192x1_0 bcast_S8192x1_S8192x128_0_1 bitsLt_bf16_f32 j k

/-- The column of labels as the region finds it. -/
theorem V_labels_col (c : Dev nD) (j : Fin 8192) :
    (V (F := Ideal) m c main_v8 : S8192x1.Idx → BitVec 32) (ix2 j (0 : Fin 1))
      = (m ((c : Thread nD τ).loc main_arg1) : S8192x1.Idx → BitVec 32) (ix2 j (0 : Fin 1)) := by
  have e : (V (F := Ideal) m c main_v8 : S8192x1.Idx → BitVec 32)
      = shapeCast S8192x1 (shapeCast S8192 (m ((c : Thread nD τ).loc main_arg1)) shapeCasts_S8192x1_S8192) shapeCasts_S8192_S8192x1 := by
    show StableHlo.after hostOps0 (fun b => m (c, b)) (Proc.devRef .tc main_v8) = _
    after_results
    rfl
  rw [e]
  exact labels_col_apply _ shapeCasts_S8192x1_S8192 shapeCasts_S8192_S8192x1 j

/-- The row of labels as the region finds it. -/
theorem V_labels_row (c : Dev nD) (j : Fin 8192) :
    (V (F := Ideal) m c main_v9 : S1x8192.Idx → BitVec 32) (ix2 (0 : Fin 1) j)
      = (m ((c : Thread nD τ).loc main_arg1) : S8192x1.Idx → BitVec 32) (ix2 j (0 : Fin 1)) := by
  have e : (V (F := Ideal) m c main_v9 : S1x8192.Idx → BitVec 32)
      = shapeCast S1x8192 (shapeCast S8192 (m ((c : Thread nD τ).loc main_arg1)) shapeCasts_S8192x1_S8192) shapeCasts_S8192_S1x8192 := by
    show StableHlo.after hostOps0 (fun b => m (c, b)) (Proc.devRef .tc main_v9) = _
    after_results
    rfl
  rw [e]
  exact labels_row_apply _ shapeCasts_S8192x1_S8192 shapeCasts_S8192_S1x8192 j

end Cert.Triplet

end
-- ==== Proof.KerBodyA.lean ====
import proofs.«114721_j26319559590784_2_alg».proof.Proof.Gen.KernelIdeal.Frame
import Idealize.ShloMosaic.Lib.Pipeline.Value
import Idealize.ShloMosaic.Lib.Tactic

/-!
  What one grid point stores.

  The body stores once, over its whole `[256, 1]` output block: the losses computed from the pair of
  extremes that its loop of four stretches carries out — the loop entered with the two finite
  stand-ins, the anchors' block being rows `256·t …` of the array and the anchors' labels the point's
  labels block. `out_eq` reads that one store back: the block holds the final arithmetic (`k0_pay7`)
  of the pair carried out of the loop.
-/

noncomputable section

namespace Cert.Triplet

open Idealize.ShloMosaic Idealize.ShloMosaic.TcCoe Idealize.SL.Sem
open Cert.KernelIdeal Cert.KernelIdeal.Gen

variable {F : FTy → Type} [FloatOps F]

/-- The zero offsets of a rank-2 block, however they are spelt. -/
theorem zero_off2 : (![0, 0] : Fin 2 → Nat) = fun _ => 0 := funext fun a => by fin_cases a <;> rfl

/-- The loop's trip count, written with its bounds (from `0` to `0 + 4` by steps of `1`), is four. -/
theorem run_trips_four : Scf.trips (0#32) (Scalar.addi 0#32 4#32) 1#32 = 4 := by decide

/-- The output block after the body: the final arithmetic of the pair the loop carries out after its
    four trips, the loop entered with the two stand-ins, on the anchors' block and labels. -/
theorem out_eq (c : Dev nD) (i : grid0.Coords) (arg1 : Memref sig .tc .vmem S8192x128 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole)
    (x0 : Vec F S8192x128 .bf16) (x1 : Vec F S256x1 .i32) (x2 : Vec F S1x8192 .i32) :
    out0_A_3 c i arg1 harg1 arg2 harg2 arg3 harg3 arg4 harg4 x0 x1 x2
      = k0_pay7
          (st_k0_t1 Variants.none c none i arg1 harg1 arg2 harg2 arg3 harg3 arg4 harg4
            (View.ld x0 (Rect.unit (s := S8192x128) (k0_off1 i) S256x128.size (k0_off1_inb i))) x1
            (harg1.unread x0) (harg3.unread x2) (k0_pay1, k0_pay2) 4).1
          (st_k0_t1 Variants.none c none i arg1 harg1 arg2 harg2 arg3 harg3 arg4 harg4
            (View.ld x0 (Rect.unit (s := S8192x128) (k0_off1 i) S256x128.size (k0_off1_inb i))) x1
            (harg1.unread x0) (harg3.unread x2) (k0_pay1, k0_pay2) 4).2 := by
  unfold out0_A_3
  rw [View.read_writes_eq_canon _ _ _ (cover0_A_3 c i arg1 harg1 arg2 harg2 arg3 harg3 arg4 harg4 x0 x1 x2)]
  unfold kernelRun0_A
  dsimp only
  rw [View.canon_unit_zero zero_off2]
  simp only [View.readAt_eq_ld, harg1.read_unread, harg2.read_unread, View.ld_unit_zero (S := S256x1) zero_off2,
    run_trips_four]

end Cert.Triplet

end
-- ==== Proof.KerBodyT.lean ====
import proofs.«114721_j26319559590784_2_alg».proof.Proof.Gen.KernelIdeal.Loops
import Idealize.ShloMosaic.Lib.Pipeline.Value
import Idealize.ShloMosaic.Lib.ValueIdx

/-!
  One stretch of the scan, as a function of the carried pair.

  The body scans the 8192 columns in four stretches of 2048. In stretch `k` it loads rows
  `2048·k … 2048·k + 2047` of the array and the same stretch of the labels' row, and replaces the
  carried pair (running maximum over the positives, running minimum over the negatives) by its
  maximum / minimum with the stretch's two extremes. Here:

  * `stretch`: that replacement, as a function of the anchors' block, the anchors' labels, the whole
    array, the labels' row, the stretch and the carried pair;
  * `trip_eq`: what one trip of the loop yields is `stretch` of what it was given;
  * `carried_four`: so the pair carried out of the loop is four `stretch`es, in order, of the pair it
    was entered with;
  * `rows_at`, `cols_at`, `labs_at`: what the three loads read at an index — row `r` of the anchors'
    block is row `256·t + r` of the array, row `q` of stretch `k`'s block is row `2048·k + q`, and
    entry `q` of stretch `k`'s labels is entry `2048·k + q` of the labels' row.
-/

noncomputable section

namespace Cert.Triplet

open Idealize.ShloMosaic Idealize.ShloMosaic.ValueIdx Idealize.SL.Sem
open Cert.KernelIdeal Cert.KernelIdeal.Gen

variable {F : FTy → Type} [FloatOps F]

/-- The loop runs four trips. -/
theorem trips_four : k0_t1_loop.trips = 4 := by decide

/-- The same count written with the loop's bounds: from `0` to `0 + 4` by steps of `1`. -/
theorem trips_four' : Scf.trips (0#32) (Scalar.addi 0#32 4#32) 1#32 = 4 := by decide

/-- The carried pair after stretch `k`: the running maximum with the stretch's largest positive
    squared distance, the running minimum with its smallest negative one. `v3` is the anchors' block,
    `v5` their labels, `x0` the whole array, `x2` the labels' row. -/
def stretch (i : grid0.Coords) (v3 : Vec F S256x128 .bf16) (v5 : Vec F S256x1 .i32)
    (x0 : Vec F S8192x128 .bf16) (x2 : Vec F S1x8192 .i32) (k : Fin k0_t1_loop.trips)
    (acc : FVec F S256x1 .f32 × FVec F S256x1 .f32) : FVec F S256x1 .f32 × FVec F S256x1 .f32 :=
  (k0_pay5 i v3 v5 k acc.1
      (View.ld x0 (Rect.unit (s := S8192x128) (k0_off2 k) S2048x128.size (k0_off2_inb k)))
      (View.ld x2 (Rect.unit (s := S1x8192) (k0_off3 k) S1x2048.size (k0_off3_inb k))),
    k0_pay6 v3 v5 acc.2
      (View.ld x0 (Rect.unit (s := S8192x128) (k0_off2 k) S2048x128.size (k0_off2_inb k)))
      (View.ld x2 (Rect.unit (s := S1x8192) (k0_off3 k) S1x2048.size (k0_off3_inb k))))

/-- One trip of the loop, on buffers that read `x0` and `x2`, yields `stretch` of the pair it was
    given: the trip's two loads read the buffers through the stretch's rectangles. -/
theorem trip_eq (𝒱 : Variants) (c : Dev nD) (bd : Option 𝒱.V) (i : grid0.Coords) (arg1 : Memref sig .tc .vmem S8192x128 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole)
    (v3 : Vec F S256x128 .bf16) (v5 : Vec F S256x1 .i32) (x0 : Vec F S8192x128 .bf16) (x2 : Vec F S1x8192 .i32)
    (k : Fin k0_t1_loop.trips) (acc : FVec F S256x1 .f32 × FVec F S256x1 .f32) :
    tripR_k0_t1 𝒱 c bd i arg1 harg1 arg2 harg2 arg3 harg3 arg4 harg4 v3 v5 (harg1.unread x0) (harg3.unread x2) k acc
      = stretch i v3 v5 x0 x2 k acc := by
  unfold tripR_k0_t1 trip_k0_t1 stretch
  dsimp only
  simp only [View.readAt_eq_ld, harg1.read_unread, harg3.read_unread]

/-- The pair carried into trip `n + 1` is `stretch n` of the pair carried into trip `n`. -/
theorem carried_succ (𝒱 : Variants) (c : Dev nD) (bd : Option 𝒱.V) (i : grid0.Coords) (arg1 : Memref sig .tc .vmem S8192x128 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole)
    (v3 : Vec F S256x128 .bf16) (v5 : Vec F S256x1 .i32) (x0 : Vec F S8192x128 .bf16) (x2 : Vec F S1x8192 .i32)
    (init : FVec F S256x1 .f32 × FVec F S256x1 .f32) (n : ℕ) (hn : n < k0_t1_loop.trips) :
    st_k0_t1 𝒱 c bd i arg1 harg1 arg2 harg2 arg3 harg3 arg4 harg4 v3 v5 (harg1.unread x0) (harg3.unread x2) init (n + 1)
      = stretch i v3 v5 x0 x2 ⟨n, hn⟩
          (st_k0_t1 𝒱 c bd i arg1 harg1 arg2 harg2 arg3 harg3 arg4 harg4 v3 v5 (harg1.unread x0) (harg3.unread x2) init n) :=
  (st_k0_t1_succ 𝒱 c bd i arg1 harg1 arg2 harg2 arg3 harg3 arg4 harg4 v3 v5 (harg1.unread x0) (harg3.unread x2) init ⟨n, hn⟩).trans
    (trip_eq 𝒱 c bd i arg1 harg1 arg2 harg2 arg3 harg3 arg4 harg4 v3 v5 x0 x2 ⟨n, hn⟩ _)

theorem lt_trips_0 : 0 < k0_t1_loop.trips := by decide
theorem lt_trips_1 : 1 < k0_t1_loop.trips := by decide
theorem lt_trips_2 : 2 < k0_t1_loop.trips := by decide
theorem lt_trips_3 : 3 < k0_t1_loop.trips := by decide

/-- The pair carried out of the loop: the four stretches, in order, of the pair it was entered with. -/
theorem carried_four (𝒱 : Variants) (c : Dev nD) (bd : Option 𝒱.V) (i : grid0.Coords) (arg1 : Memref sig .tc .vmem S8192x128 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole)
    (v3 : Vec F S256x128 .bf16) (v5 : Vec F S256x1 .i32) (x0 : Vec F S8192x128 .bf16) (x2 : Vec F S1x8192 .i32)
    (init : FVec F S256x1 .f32 × FVec F S256x1 .f32) :
    st_k0_t1 𝒱 c bd i arg1 harg1 arg2 harg2 arg3 harg3 arg4 harg4 v3 v5 (harg1.unread x0) (harg3.unread x2) init 4
      = stretch i v3 v5 x0 x2 ⟨3, lt_trips_3⟩ (stretch i v3 v5 x0 x2 ⟨2, lt_trips_2⟩
          (stretch i v3 v5 x0 x2 ⟨1, lt_trips_1⟩ (stretch i v3 v5 x0 x2 ⟨0, lt_trips_0⟩ init))) :=
  (carried_succ 𝒱 c bd i arg1 harg1 arg2 harg2 arg3 harg3 arg4 harg4 v3 v5 x0 x2 init 3 lt_trips_3).trans
    (congrArg (stretch i v3 v5 x0 x2 ⟨3, lt_trips_3⟩)
      ((carried_succ 𝒱 c bd i arg1 harg1 arg2 harg2 arg3 harg3 arg4 harg4 v3 v5 x0 x2 init 2 lt_trips_2).trans
        (congrArg (stretch i v3 v5 x0 x2 ⟨2, lt_trips_2⟩)
          ((carried_succ 𝒱 c bd i arg1 harg1 arg2 harg2 arg3 harg3 arg4 harg4 v3 v5 x0 x2 init 1 lt_trips_1).trans
            (congrArg (stretch i v3 v5 x0 x2 ⟨1, lt_trips_1⟩)
              ((carried_succ 𝒱 c bd i arg1 harg1 arg2 harg2 arg3 harg3 arg4 harg4 v3 v5 x0 x2 init 0 lt_trips_0).trans
                (congrArg (stretch i v3 v5 x0 x2 ⟨0, lt_trips_0⟩)
                  (st_k0_t1_zero 𝒱 c bd i arg1 harg1 arg2 harg2 arg3 harg3 arg4 harg4 v3 v5 (harg1.unread x0) (harg3.unread x2) init))))))))

/-! ## The loads at an index -/

/-- Row `r` of the anchors' block at grid point `t` is row `256·t + r` of the array. -/
theorem rows_at (i : grid0.Coords) (x0 : Vec F S8192x128 .bf16) (r : Fin 256) (k : Fin 128) (j : Fin 8192)
    (hj : j.val = 256 * (i 0).val + r.val) :
    View.ld x0 (Rect.unit (s := S8192x128) (k0_off1 i) S256x128.size (k0_off1_inb i)) (ix2 r k) = x0 (ix2 j k) := by
  show x0 _ = x0 _
  refine congrArg x0 (funext fun a => Fin.ext ?_)
  match a with
  | ⟨0, _⟩ =>
    show k0_off1 i 0 + 1 * r.val = j.val
    rw [k0_off1_eq i]
    show 256 * (i 0).val + 1 * r.val = j.val
    omega
  | ⟨1, _⟩ =>
    show k0_off1 i 1 + 1 * k.val = k.val
    rw [k0_off1_eq i]
    show 0 + 1 * k.val = k.val
    omega

/-- Row `q` of stretch `k`'s block is row `2048·k + q` of the array. -/
theorem cols_at (k : Fin k0_t1_loop.trips) (x0 : Vec F S8192x128 .bf16) (q : Fin 2048) (kk : Fin 128) (j : Fin 8192)
    (hj : j.val = 2048 * k.val + q.val) :
    View.ld x0 (Rect.unit (s := S8192x128) (k0_off2 k) S2048x128.size (k0_off2_inb k)) (ix2 q kk) = x0 (ix2 j kk) := by
  show x0 _ = x0 _
  refine congrArg x0 (funext fun a => Fin.ext ?_)
  match a with
  | ⟨0, _⟩ =>
    show k0_off2 k 0 + 1 * q.val = j.val
    rw [k0_off2_eq k]
    show 2048 * k.val + 1 * q.val = j.val
    omega
  | ⟨1, _⟩ =>
    show k0_off2 k 1 + 1 * kk.val = kk.val
    rw [k0_off2_eq k]
    show 0 + 1 * kk.val = kk.val
    omega

/-- Entry `q` of stretch `k`'s labels is entry `2048·k + q` of the labels' row. -/
theorem labs_at (k : Fin k0_t1_loop.trips) (x2 : Vec F S1x8192 .i32) (q : Fin 2048) (j : Fin 8192)
    (hj : j.val = 2048 * k.val + q.val) :
    View.ld x2 (Rect.unit (s := S1x8192) (k0_off3 k) S1x2048.size (k0_off3_inb k)) (ix2 (0 : Fin 1) q)
      = x2 (ix2 (0 : Fin 1) j) := by
  show x2 _ = x2 _
  refine congrArg x2 (funext fun a => Fin.ext ?_)
  match a with
  | ⟨0, _⟩ =>
    show k0_off3 k 0 + 1 * (0 : Fin 1).val = (0 : Fin 1).val
    rw [k0_off3_eq k]
    show 0 + 1 * 0 = 0
    rfl
  | ⟨1, _⟩ =>
    show k0_off3 k 1 + 1 * q.val = j.val
    rw [k0_off3_eq k]
    show 2048 * k.val + 1 * q.val = j.val
    omega

end Cert.Triplet

end
-- ==== Proof.LibMinReduce.lean ====
/-
  A minimum taken along ONE axis, at the ideal float values, is the infimum over that axis's coordinates.

  At the ideal values `minimumf` is `min` on the extended reals, so a reduction with a minimum body from
  `+∞` along one axis is, at each reduced index `j`, the greatest lower bound of the source's entries at
  `j` with each coordinate `k` of the reduced axis put back (`Shape.Reduces.lift j k`). Stated for the
  in-kernel vector reduction and for the host's one-operand reduce, as an `⨅` over `Fin`: a form whose
  only law a proof needs is `le_iInf_iff`.
-/
import Idealize.ShloMosaic.PureOps.Ideal.Laws
import Idealize.ShloMosaic.PureOps.Reduce

noncomputable section

namespace Idealize.ShloMosaic.Ideal

/-- The f32 pattern of `+∞` denotes the top of the extended reals. -/
theorem ofBits_posInf_f32 : Ideal.ofBits .f32 0x7F800000#32 = (⊤ : EReal) := by
  simp [Ideal.ofBits, Ideal.ieee]

/-- A fold of `min` from the top over all of `Fin n` is the infimum of the entries. -/
theorem fold_min_top_eq_iInf {n : Nat} (f : Fin n → EReal) :
    (Finset.univ : Finset (Fin n)).fold min (⊤ : EReal) f = ⨅ k : Fin n, f k := by
  refine eq_of_forall_le_iff fun z => ?_
  rw [Finset.le_fold_min, le_iInf_iff]
  exact ⟨fun h k => h.2 k (Finset.mem_univ k), fun h => ⟨le_top, fun k _ => h k⟩⟩

/-- The in-kernel minimum along one axis from `+∞`, at a reduced index, is the infimum over that axis. -/
theorem multiReduction_minimumf_single_iInf {s t : Shape} {a : Fin s.rank} (src : FVec Ideal s .f32)
    (h : s.Reduces [a] t) (hφ : FKind.Formats .f32) (hacc : (0x7F800000#32 : BitVec 32) = FKind.minimumf.neutral .f32 hφ)
    (j : t.Idx) :
    multiReduction .minimumf [a] t src 0x7F800000#32 h hφ hacc j = ⨅ k : Fin (s.size a), src (h.lift j k) := by
  rw [multiReduction_minimumf_eq_fold, h.fold_filter_drop_single]
  show (Finset.univ : Finset (Fin (s.size a))).fold min (Ideal.ofBits .f32 0x7F800000#32) (src ∘ h.lift j) = _
  rw [ofBits_posInf_f32]
  exact fold_min_top_eq_iInf _

/-- The host's one-operand reduce with a minimum body from `+∞` along one axis is the same infimum. -/
theorem hostReduce_minimumf_single_iInf {s t u : Shape} {a : Fin s.rank} (x : FVec Ideal s .f32)
    (h' : s.ReducesTo [a] t) (h : s.Reduces [a] t) (hu : 0 < u.numel) (j : t.Idx) :
    Host.reduce FloatOps.minimumf x (constant (F := Ideal) u .f32 0x7F800000#32) h' hu j
      = ⨅ k : Fin (s.size a), x (h.lift j k) := by
  rw [Host.reduce_eq_fold_single FloatOps.minimumf x _ h' h hu]
  show (Finset.univ : Finset (Fin (s.size a))).fold min (Ideal.ofBits .f32 0x7F800000#32) (x ∘ h.lift j) = _
  rw [ofBits_posInf_f32]
  exact fold_min_top_eq_iInf _

end Idealize.ShloMosaic.Ideal

end
-- ==== Proof.LibMaxReduce.lean ====
/-
  A maximum taken along ONE axis, at the ideal float values, is the supremum over that axis's coordinates.

  At the ideal values `maximumf` is `max` on the extended reals, so a reduction with a maximum body from
  `-∞` along one axis is, at each reduced index `j`, the least upper bound of the source's entries at
  `j` with each coordinate `k` of the reduced axis put back (`Shape.Reduces.lift j k`). Stated for the
  in-kernel vector reduction and for the host's one-operand reduce, as an `⨆` over `Fin`: a form whose
  only law a proof needs is `iSup_le_iff`.
-/
import Idealize.ShloMosaic.PureOps.Ideal.Laws
import Idealize.ShloMosaic.PureOps.Reduce

noncomputable section

namespace Idealize.ShloMosaic.Ideal

/-- The f32 pattern of `-∞` denotes the bottom of the extended reals. -/
theorem ofBits_negInf_f32 : Ideal.ofBits .f32 0xFF800000#32 = (⊥ : EReal) := by
  simp [Ideal.ofBits, Ideal.ieee]

/-- A fold of `max` from the bottom over all of `Fin n` is the supremum of the entries. -/
theorem fold_max_bot_eq_iSup {n : Nat} (f : Fin n → EReal) :
    (Finset.univ : Finset (Fin n)).fold max (⊥ : EReal) f = ⨆ k : Fin n, f k := by
  refine eq_of_forall_ge_iff fun z => ?_
  rw [Finset.fold_max_le, iSup_le_iff]
  exact ⟨fun h k => h.2 k (Finset.mem_univ k), fun h => ⟨bot_le, fun k _ => h k⟩⟩

/-- The in-kernel maximum along one axis from `-∞`, at a reduced index, is the supremum over that axis. -/
theorem multiReduction_maximumf_single_iSup {s t : Shape} {a : Fin s.rank} (src : FVec Ideal s .f32)
    (h : s.Reduces [a] t) (hφ : FKind.Formats .f32) (hacc : (0xFF800000#32 : BitVec 32) = FKind.maximumf.neutral .f32 hφ)
    (j : t.Idx) :
    multiReduction .maximumf [a] t src 0xFF800000#32 h hφ hacc j = ⨆ k : Fin (s.size a), src (h.lift j k) := by
  rw [multiReduction_maximumf_eq_fold, h.fold_filter_drop_single]
  show (Finset.univ : Finset (Fin (s.size a))).fold max (Ideal.ofBits .f32 0xFF800000#32) (src ∘ h.lift j) = _
  rw [ofBits_negInf_f32]
  exact fold_max_bot_eq_iSup _

/-- The host's one-operand reduce with a maximum body from `-∞` along one axis is the same supremum. -/
theorem hostReduce_maximumf_single_iSup {s t u : Shape} {a : Fin s.rank} (x : FVec Ideal s .f32)
    (h' : s.ReducesTo [a] t) (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (x ∘ h.lift j) = _
  rw [ofBits_negInf_f32]
  exact fold_max_bot_eq_iSup _

end Idealize.ShloMosaic.Ideal

end
-- ==== Proof.KerPay.lean ====
import proofs.«114721_j26319559590784_2_alg».proof.Proof.Spec
import proofs.«114721_j26319559590784_2_alg».proof.Proof.Gen.KernelIdeal.Skeleton
import proofs.«114721_j26319559590784_2_alg».proof.Proof.LibMinReduce
import proofs.«114721_j26319559590784_2_alg».proof.Proof.LibMaxReduce
import Idealize.ShloMosaic.Lib.ValueIdx
import Idealize.ShloMosaic.Lib.Pipeline.Value
import Idealize.ShloMosaic.Lib.ValueLayout
import Idealize.ShloMosaic.PureOps.Ideal.Laws

/-!
  The values the kernel computes between its memory operations, each read at one row (and one column) at the ideal
  float values: the two starting columns are the finite stand-ins for the infinities; a tile of squared distances is
  `max (2 - 2 · ⟨row r, row q⟩) 0`; the label test compares the anchor's label with the column's; one stretch's step
  takes the running maximum with the supremum over the stretch's positives and the running minimum with the infimum
  over its negatives; the last step turns the two extremes into the anchor's loss.
-/

noncomputable section

namespace Cert.Triplet

open Idealize.ShloMosaic Idealize.ShloMosaic.ValueIdx Cert.KernelIdeal Cert.KernelIdeal.Gen

/-! ### One-bit words and comparisons -/

/-- An equality test of two words is `1` exactly when the words are equal. -/
theorem kp_cmpi_eq_one_iff {w : Nat} (x y : BitVec w) : IntOp.cmpi .eq x y = 1#1 ↔ x = y := by
  simp only [IntOp.cmpi]
  cases hb : (x == y) with
  | true => exact ⟨fun _ => eq_of_beq hb, fun _ => rfl⟩
  | false => exact ⟨fun e => absurd e (by decide), fun e => absurd e (ne_of_beq_false hb)⟩

/-- A bit flipped is `1` exactly when the bit was not `1`. -/
theorem kp_xori_one_eq_one_iff (b : BitVec 1) : IntOp.xori b 1#1 = 1#1 ↔ ¬ b = 1#1 := by revert b; decide

/-- The comparison "greater than" is `1` exactly on the strict order. -/
theorem kp_cmp_ogt_eq_one_iff (a b : EReal) : Ideal.cmp .ogt a b = 1#1 ↔ b < a := by
  by_cases h : b < a
  · exact ⟨fun _ => h, fun _ => by simp [Ideal.cmp, h]⟩
  · exact ⟨fun e => by simp [Ideal.cmp, h] at e, fun e => absurd e h⟩

/-- The comparison "less than" is `1` exactly on the strict order. -/
theorem kp_cmp_olt_eq_one_iff (a b : EReal) : Ideal.cmp .olt a b = 1#1 ↔ a < b := by
  by_cases h : a < b
  · exact ⟨fun _ => h, fun _ => by simp [Ideal.cmp, h]⟩
  · exact ⟨fun e => by simp [Ideal.cmp, h] at e, fun e => absurd e h⟩

/-- Two positions `256 a + r` and `2048 c + q` below `8192`, carried as 32-bit words, are equal as words exactly
    when they are equal as numbers: nothing wraps. -/
theorem kp_eye_words_iff (a r c q : Nat) (ha : a < 32) (hr : r < 256) (hc : c < 4) (hq : q < 2048) :
    IntOp.addi (Scalar.muli (BitVec.ofNat 32 a) 256#32) (BitVec.ofNat 32 r)
        = IntOp.addi (Scalar.muli (Scf.iv 0#32 1#32 c) 2048#32) (BitVec.ofNat 32 q)
      ↔ 256 * a + r = 2048 * c + q := by
  show BitVec.ofNat 32 a * 256#32 + BitVec.ofNat 32 r
      = (0#32 + BitVec.ofNat 32 c * 1#32) * 2048#32 + BitVec.ofNat 32 q ↔ _
  rw [← BitVec.toNat_inj]
  simp only [BitVec.toNat_add, BitVec.toNat_mul, BitVec.toNat_ofNat, Nat.reducePow, Nat.reduceMod]
  omega

/-! ### Columns, rows and tiles read at an index -/

/-- A column spread along the columns of a tile reads its own row. -/
theorem kp_bcastRow_apply {α : Type} (x : S256x1.Idx → α) (h : S256x1.Broadcasts S256x2048) (r : Fin 256) (q : Fin 2048) :
    broadcastTo S256x2048 x h (ix2 r q) = x (ix2 r (0 : Fin 1)) :=
  broadcastTo_apply x h (ix2 r q) (ix2 r (0 : Fin 1)) (fun a => by
    match a with
    | ⟨0, _⟩ => show r.val = if (256 : Nat) = 1 then 0 else r.val; rw [if_neg (by decide)]
    | ⟨1, _⟩ => show (0 : Nat) = if (1 : Nat) = 1 then 0 else q.val; rw [if_pos rfl])

/-- A vector of 256 entries viewed as a column reads, at row `r`, its entry `r`. -/
theorem kp_castCol_apply {α : Type} (x : S256.Idx → α) (h : S256.ShapeCasts S256x1) (r : Fin 256) :
    shapeCast S256x1 x h (ix2 r (0 : Fin 1)) = x (ix1 r) :=
  shapeCast_apply x h _ _ (by
    rw [Shape.rowMajor_val_two, Shape.rowMajor_val_one]
    show r.val = r.val * 1 + 0
    omega)

/-- The maximum along the rows of a tile, from `-∞`, viewed as a column: at row `r` the supremum of the row. -/
theorem kp_rowmax_apply (src : FVec Ideal S256x2048 .f32) (h : S256x2048.Reduces [1] S256) (hφ : FKind.Formats .f32)
    (hacc : (0xFF800000#32 : BitVec 32) = FKind.maximumf.neutral .f32 hφ) (hc : S256.ShapeCasts S256x1) (r : Fin 256) :
    shapeCast S256x1 (multiReduction .maximumf [1] S256 src 0xFF800000#32 h hφ hacc) hc (ix2 r (0 : Fin 1))
      = ⨆ q : Fin 2048, src (ix2 r q) := by
  refine (kp_castCol_apply _ hc r).trans ?_
  refine (Ideal.multiReduction_maximumf_single_iSup src h hφ hacc (ix1 r)).trans ?_
  exact iSup_congr fun q => congrArg src (funext fun c => Fin.ext (by match c with | ⟨0, _⟩ => rfl | ⟨1, _⟩ => rfl))

/-- The minimum along the rows of a tile, from `+∞`, viewed as a column: at row `r` the infimum of the row. -/
theorem kp_rowmin_apply (src : FVec Ideal S256x2048 .f32) (h : S256x2048.Reduces [1] S256) (hφ : FKind.Formats .f32)
    (hacc : (0x7F800000#32 : BitVec 32) = FKind.minimumf.neutral .f32 hφ) (hc : S256.ShapeCasts S256x1) (r : Fin 256) :
    shapeCast S256x1 (multiReduction .minimumf [1] S256 src 0x7F800000#32 h hφ hacc) hc (ix2 r (0 : Fin 1))
      = ⨅ q : Fin 2048, src (ix2 r q) := by
  refine (kp_castCol_apply _ hc r).trans ?_
  refine (Ideal.multiReduction_minimumf_single_iInf src h hφ hacc (ix1 r)).trans ?_
  exact iInf_congr fun q => congrArg src (funext fun c => Fin.ext (by match c with | ⟨0, _⟩ => rfl | ⟨1, _⟩ => rfl))

/-- The global row numbers of a block, spread along the columns: at `(r, q)` the block's offset plus `r`. -/
theorem kp_rowIds_apply (v1 : BitVec 32) (hi : S256x1.Iotas .tc 32 [0]) (hb : S256x1.Broadcasts S256x2048)
    (r : Fin 256) (q : Fin 2048) :
    broadcastTo S256x2048 (addi (broadcast S256x1 v1) (iota .tc S256x1 32 [0] hi)) hb (ix2 r q)
      = IntOp.addi v1 (BitVec.ofNat 32 r.val) := by
  refine (kp_bcastRow_apply _ hb r q).trans ?_
  exact congrArg (IntOp.addi v1) (iota_single_apply .tc S256x1 32 0 hi (ix2 r (0 : Fin 1)))

/-- The global column numbers of a stretch, spread along the rows: at `(r, q)` the stretch's offset plus `q`. -/
theorem kp_colIds_apply (v34 : BitVec 32) (hi : S1x2048.Iotas .tc 32 [1]) (hb : S1x2048.Broadcasts S256x2048)
    (r : Fin 256) (q : Fin 2048) :
    broadcastTo S256x2048 (addi (broadcast S1x2048 v34) (iota .tc S1x2048 32 [1] hi)) hb (ix2 r q)
      = IntOp.addi v34 (BitVec.ofNat 32 q.val) := by
  refine (broadcastTo_1b_ab_apply _ hb r q).trans ?_
  exact congrArg (IntOp.addi v34) (iota_single_apply .tc S1x2048 32 1 hi (ix2 (0 : Fin 1) q))

/-- The test "the column is the anchor itself" at `(r, q)` of block `i` and stretch `k`: the two global positions
    are equal. -/
theorem kp_eye_apply (i : grid0.Coords) (k : Fin k0_t1_loop.trips) (hi0 : S256x1.Iotas .tc 32 [0])
    (hb0 : S256x1.Broadcasts S256x2048) (hi1 : S1x2048.Iotas .tc 32 [1]) (hb1 : S1x2048.Broadcasts S256x2048)
    (r : Fin 256) (q : Fin 2048) :
    cmpi .eq
        (broadcastTo S256x2048 (addi (broadcast S256x1 (Scalar.muli (BitVec.ofNat 32 (i 0).val) 256#32))
          (iota .tc S256x1 32 [0] hi0)) hb0)
        (broadcastTo S256x2048 (addi (broadcast S1x2048 (Scalar.muli (Scf.iv 0#32 1#32 k) 2048#32))
          (iota .tc S1x2048 32 [1] hi1)) hb1) (ix2 r q) = 1#1
      ↔ 256 * (i 0).val + r.val = 2048 * k.val + q.val := by
  show IntOp.cmpi .eq (broadcastTo S256x2048 _ hb0 (ix2 r q)) (broadcastTo S256x2048 _ hb1 (ix2 r q)) = 1#1 ↔ _
  rw [kp_rowIds_apply, kp_colIds_apply, kp_cmpi_eq_one_iff]
  exact kp_eye_words_iff _ _ _ _ (i 0).isLt r.isLt (lt_of_lt_of_le k.isLt k0_t1_abs.2.1) q.isLt

/-! ### The product of a block of rows with a stretch of rows, transposed -/

theorem kp_mm_lhs0 (j : S256x2048.Idx) (p : dot_S256x128_S2048x128_S256x2048_1_1_0_0_n_n.contr.Idx) :
    (dot_S256x128_S2048x128_S256x2048_1_1_0_0_n_n.lhsIdx j p 0).val = (j 0).val := by
  unfold DotDims.lhsIdx
  rw [dif_neg (show ¬(0 : Fin S256x128.rank) ∈ dot_S256x128_S2048x128_S256x2048_1_1_0_0_n_n.lhsBatch by decide),
    dif_pos (show (0 : Fin S256x128.rank) ∈ dot_S256x128_S2048x128_S256x2048_1_1_0_0_n_n.lhsNonContracting by decide)]
  rfl

theorem kp_mm_rhs0 (j : S256x2048.Idx) (p : dot_S256x128_S2048x128_S256x2048_1_1_0_0_n_n.contr.Idx) :
    (dot_S256x128_S2048x128_S256x2048_1_1_0_0_n_n.rhsIdx j p 0).val = (j 1).val := by
  unfold DotDims.rhsIdx
  rw [dif_neg (show ¬(0 : Fin S2048x128.rank) ∈ dot_S256x128_S2048x128_S256x2048_1_1_0_0_n_n.rhsBatch by decide),
    dif_pos (show (0 : Fin S2048x128.rank) ∈ dot_S256x128_S2048x128_S256x2048_1_1_0_0_n_n.rhsNonContracting by decide)]
  rfl

/-- The matrix product onto the zero tile, at `(r, q)`: the inner product of row `r` of the block and row `q` of
    the stretch. -/
theorem kp_mm_apply (a : FVec Ideal S256x128 .bf16) (b : FVec Ideal S2048x128 .bf16) (r : Fin 256) (q : Fin 2048) :
    FloatOps.matmul dot_S256x128_S2048x128_S256x2048_1_1_0_0_n_n none a b (constant S256x2048 .f32 0x00000000#32) (ix2 r q)
      = ∑ k : Fin 128, a (ix2 r k) * b (ix2 q k) := by
  rw [Ideal.matmul_constant_zero_apply,
    ← Equiv.sum_comp (contrEquiv1 dot_S256x128_S2048x128_S256x2048_1_1_0_0_n_n 128 rfl rfl).symm]
  refine Finset.sum_congr rfl fun k _ => ?_
  have hk := contrEquiv1_symm_val dot_S256x128_S2048x128_S256x2048_1_1_0_0_n_n 128 rfl rfl k
  have el : dot_S256x128_S2048x128_S256x2048_1_1_0_0_n_n.lhsIdx (ix2 r q)
      ((contrEquiv1 dot_S256x128_S2048x128_S256x2048_1_1_0_0_n_n 128 rfl rfl).symm k) = ix2 r k :=
    funext fun c => Fin.ext (by
      match c with
      | ⟨0, _⟩ => exact kp_mm_lhs0 _ _
      | ⟨1, _⟩ => exact (dot_S256x128_S2048x128_S256x2048_1_1_0_0_n_n.lhsIdx_val_of_single rfl _ _).trans hk)
  have er : dot_S256x128_S2048x128_S256x2048_1_1_0_0_n_n.rhsIdx (ix2 r q)
      ((contrEquiv1 dot_S256x128_S2048x128_S256x2048_1_1_0_0_n_n 128 rfl rfl).symm k) = ix2 q k :=
    funext fun c => Fin.ext (by
      match c with
      | ⟨0, _⟩ => exact kp_mm_rhs0 _ _
      | ⟨1, _⟩ => exact (dot_S256x128_S2048x128_S256x2048_1_1_0_0_n_n.rhsIdx_val_of_single rfl _ _).trans hk)
  rw [el, er]

/-! ### The kernel's values -/

/-- The running maximum starts from the finite stand-in for `-∞`. -/
theorem pay1_apply (r : Fin 256) : k0_pay1 (F := Ideal) (ix2 r (0 : Fin 1)) = NEG := rfl

/-- The running minimum starts from the finite stand-in for `+∞`. -/
theorem pay2_apply (r : Fin 256) : k0_pay2 (F := Ideal) (ix2 r (0 : Fin 1)) = POS := rfl

/-- The tile of squared distances of unit rows, clamped at zero. -/
theorem pay3_apply (v3 : Vec Ideal S256x128 .bf16) (v36 : Vec Ideal S2048x128 .bf16) (r : Fin 256) (q : Fin 2048) :
    k0_pay3 (F := Ideal) v3 v36 (ix2 r q)
      = max (TWO - TWO * ∑ k : Fin 128, v3 (ix2 r k) * v36 (ix2 q k)) ZERO := by
  unfold k0_pay3
  rw [shapeCast_self, shapeCast_self]
  show max (TWO - TWO * _) ZERO = _
  exact congrArg (fun z => max (TWO - TWO * z) ZERO) (kp_mm_apply v3 v36 r q)

/-- The label test: the anchor's label is the column's. -/
theorem pay4_apply (v5 : Vec Ideal S256x1 .i32) (v39 : Vec Ideal S1x2048 .i32) (r : Fin 256) (q : Fin 2048) :
    k0_pay4 (F := Ideal) v5 v39 (ix2 r q) = 1#1 ↔ v5 (ix2 r (0 : Fin 1)) = v39 (ix2 (0 : Fin 1) q) := by
  unfold k0_pay4
  rw [shapeCast_self, shapeCast_self]
  show IntOp.cmpi .eq (broadcastTo S256x2048 v5 _ (ix2 r q)) (broadcastTo S256x2048 v39 _ (ix2 r q)) = 1#1 ↔ _
  rw [kp_bcastRow_apply, broadcastTo_1b_ab_apply, kp_cmpi_eq_one_iff]

/-- One stretch's step of the running maximum: the maximum with the supremum, over the stretch's columns, of the
    squared distance to a positive (same label, not the anchor itself), the stand-in for `-∞` elsewhere. -/
theorem pay5_apply (i : grid0.Coords) (v3 : Vec Ideal S256x128 .bf16) (v5 : Vec Ideal S256x1 .i32)
    (k : Fin k0_t1_loop.trips) (arg6 : FVec Ideal S256x1 .f32) (v36 : Vec Ideal S2048x128 .bf16)
    (v39 : Vec Ideal S1x2048 .i32) (r : Fin 256) :
    k0_pay5 (F := Ideal) i v3 v5 k arg6 v36 v39 (ix2 r (0 : Fin 1))
      = max (arg6 (ix2 r (0 : Fin 1)))
          (⨆ q : Fin 2048,
            if (v5 (ix2 r (0 : Fin 1)) = v39 (ix2 (0 : Fin 1) q) ∧ 256 * (i 0).val + r.val ≠ 2048 * k.val + q.val) then
              max (TWO - TWO * ∑ kk : Fin 128, v3 (ix2 r kk) * v36 (ix2 q kk)) ZERO
            else NEG) := by
  unfold k0_pay5
  dsimp only
  refine (congrArg (max (arg6 (ix2 r (0 : Fin 1)))) (kp_rowmax_apply _ _ _ _ _ r)).trans ?_
  refine congrArg (max (arg6 (ix2 r (0 : Fin 1)))) (iSup_congr fun q => ?_)
  show Scalar.select
      (IntOp.andi (k0_pay4 (F := Ideal) v5 v39 (ix2 r q)) (IntOp.xori (cmpi .eq _ _ (ix2 r q)) 1#1))
      (k0_pay3 (F := Ideal) v3 v36 (ix2 r q)) NEG = _
  rw [pay3_apply]
  exact if_congr
    (IntOp.andi_eq_one.trans (and_congr (pay4_apply v5 v39 r q)
      ((kp_xori_one_eq_one_iff _).trans (not_congr (kp_eye_apply i k _ _ _ _ r q))))) rfl rfl

/-- One stretch's step of the running minimum: the minimum with the infimum, over the stretch's columns, of the
    squared distance to a negative (another label), the stand-in for `+∞` elsewhere. -/
theorem pay6_apply (v3 : Vec Ideal S256x128 .bf16) (v5 : Vec Ideal S256x1 .i32) (arg7 : FVec Ideal S256x1 .f32)
    (v36 : Vec Ideal S2048x128 .bf16) (v39 : Vec Ideal S1x2048 .i32) (r : Fin 256) :
    k0_pay6 (F := Ideal) v3 v5 arg7 v36 v39 (ix2 r (0 : Fin 1))
      = min (arg7 (ix2 r (0 : Fin 1)))
          (⨅ q : Fin 2048,
            if v5 (ix2 r (0 : Fin 1)) ≠ v39 (ix2 (0 : Fin 1) q) then
              max (TWO - TWO * ∑ kk : Fin 128, v3 (ix2 r kk) * v36 (ix2 q kk)) ZERO
            else POS) := by
  unfold k0_pay6
  dsimp only
  refine (congrArg (min (arg7 (ix2 r (0 : Fin 1)))) (kp_rowmin_apply _ _ _ _ _ r)).trans ?_
  refine congrArg (min (arg7 (ix2 r (0 : Fin 1)))) (iInf_congr fun q => ?_)
  show Scalar.select (IntOp.xori (k0_pay4 (F := Ideal) v5 v39 (ix2 r q)) 1#1)
      (k0_pay3 (F := Ideal) v3 v36 (ix2 r q)) POS = _
  rw [pay3_apply]
  exact if_congr ((kp_xori_one_eq_one_iff _).trans (not_congr (pay4_apply v5 v39 r q))) rfl rfl

/-- The last step: the anchor's loss from the two extremes of the squared distances. -/
theorem pay7_apply (a b : FVec Ideal S256x1 .f32) (r : Fin 256) :
    k0_pay7 (F := Ideal) a b (ix2 r (0 : Fin 1)) = rowOfExtremes (a (ix2 r (0 : Fin 1))) (b (ix2 r (0 : Fin 1))) := by
  unfold k0_pay7 rowOfExtremes
  show (if IntOp.andi (Ideal.cmp .ogt (a (ix2 r (0 : Fin 1))) NEGH) (Ideal.cmp .olt (b (ix2 r (0 : Fin 1))) POSH) = 1 then
      max ((Ideal.sqrt (max (a (ix2 r (0 : Fin 1))) ZERO) - Ideal.sqrt (max (b (ix2 r (0 : Fin 1))) ZERO)) + MARGIN) ZERO
    else ZERO) = _
  exact if_congr (IntOp.andi_eq_one.trans (and_congr (kp_cmp_ogt_eq_one_iff _ _) (kp_cmp_olt_eq_one_iff _ _))) rfl rfl

end Cert.Triplet

end
-- ==== Proof.KerBody.lean ====
import proofs.«114721_j26319559590784_2_alg».proof.Proof.KerBodyA
import proofs.«114721_j26319559590784_2_alg».proof.Proof.KerBodyT
import proofs.«114721_j26319559590784_2_alg».proof.Proof.KerPay
import proofs.«114721_j26319559590784_2_alg».proof.Proof.Spec

/-!
  What one grid point stores, row by row: the loss of the specification's scan in stretches.

  Grid point `t` handles the anchors `256·t … 256·t + 255`. For anchor `a = 256·t + r`:

  * in stretch `c` the body's running maximum becomes its maximum with the largest clamped squared
    distance `max (2 - 2 x a · x j) 0` over the positives `j` of the stretch (the stand-in `NEG` where
    `j` is no positive) — `cpos x lab a c` — and its running minimum the minimum with the smallest
    over the negatives — `cneg x lab a c` (`stretch_at`): the block's rows are the array's rows
    `256·t + r` and `2048·c + q`, the labels those rows' labels, and "another row" is
    `256·t + r ≠ 2048·c + q`;
  * so after the four stretches, entered with the two stand-ins, the pair is `hpK`, `hnK`, and the
    final arithmetic gives `rowOfExtremes` of them, which is `kerRow` (`out_row`).
-/

noncomputable section

namespace Cert.Triplet

open Idealize.ShloMosaic Idealize.ShloMosaic.TcCoe Idealize.ShloMosaic.ValueIdx Idealize.SL.Sem
open Cert.KernelIdeal Cert.KernelIdeal.Gen

/-- Anchor `r` of grid point `t` is a row of the array. -/
theorem row_lt (i : grid0.Coords) (r : Fin 256) : 256 * (i 0).val + r.val < 8192 := by
  have h1 : (i 0).val < 32 := (i 0).isLt
  have h2 := r.isLt
  omega

/-- One stretch read at anchor `r`, whose row of the array is `a`: the running maximum takes in the
    stretch's largest squared distance to a positive, the running minimum its smallest to a negative. -/
theorem stretch_at (i : grid0.Coords) (x0 : Vec Ideal S8192x128 .bf16) (x1 : Vec Ideal S256x1 .i32)
    (x2 : Vec Ideal S1x8192 .i32) (x : Fin 8192 → Fin 128 → EReal) (lab : Fin 8192 → BitVec 32)
    (hx : ∀ (j : Fin 8192) (k : Fin 128), x0 (ix2 j k) = x j k)
    (hl2 : ∀ j : Fin 8192, x2 (ix2 (0 : Fin 1) j) = lab j)
    (r : Fin 256) (a : Fin 8192) (ha : a.val = 256 * (i 0).val + r.val)
    (hl1 : x1 (ix2 r (0 : Fin 1)) = lab a)
    (k : Fin k0_t1_loop.trips) (cc : Fin 4) (hk : k.val = cc.val)
    (acc : FVec Ideal S256x1 .f32 × FVec Ideal S256x1 .f32) :
    (stretch (F := Ideal) i (View.ld x0 (Rect.unit (s := S8192x128) (k0_off1 i) S256x128.size (k0_off1_inb i))) x1 x0 x2 k acc).1 (ix2 r (0 : Fin 1))
        = max (acc.1 (ix2 r (0 : Fin 1))) (cpos x lab a cc)
      ∧ (stretch (F := Ideal) i (View.ld x0 (Rect.unit (s := S8192x128) (k0_off1 i) S256x128.size (k0_off1_inb i))) x1 x0 x2 k acc).2 (ix2 r (0 : Fin 1))
        = min (acc.2 (ix2 r (0 : Fin 1))) (cneg x lab a cc) := by
  have hcol : ∀ q : Fin 2048, (col cc q).val = 2048 * k.val + q.val := fun q => by
    show 2048 * cc.val + q.val = _
    rw [hk]
  have hv39 : ∀ q : Fin 2048, (View.ld x2 (Rect.unit (s := S1x8192) (k0_off3 k) S1x2048.size (k0_off3_inb k))) (ix2 (0 : Fin 1) q) = lab (col cc q) :=
    fun q => (labs_at k x2 q (col cc q) (hcol q)).trans (hl2 _)
  have hv3 : ∀ kk : Fin 128, (View.ld x0 (Rect.unit (s := S8192x128) (k0_off1 i) S256x128.size (k0_off1_inb i))) (ix2 r kk) = x a kk :=
    fun kk => (rows_at i x0 r kk a ha).trans (hx _ _)
  have hv36 : ∀ (q : Fin 2048) (kk : Fin 128), (View.ld x0 (Rect.unit (s := S8192x128) (k0_off2 k) S2048x128.size (k0_off2_inb k))) (ix2 q kk) = x (col cc q) kk :=
    fun q kk => (cols_at k x0 q kk (col cc q) (hcol q)).trans (hx _ _)
  have hd2 : ∀ q : Fin 2048,
      max (TWO - TWO * ∑ kk : Fin 128, (View.ld x0 (Rect.unit (s := S8192x128) (k0_off1 i) S256x128.size (k0_off1_inb i))) (ix2 r kk) * (View.ld x0 (Rect.unit (s := S8192x128) (k0_off2 k) S2048x128.size (k0_off2_inb k))) (ix2 q kk)) ZERO = d2K x a (col cc q) := fun q => by
    unfold d2K dot
    exact congrArg (fun s => max (TWO - TWO * s) ZERO)
      (Finset.sum_congr rfl fun kk _ => by rw [hv3 kk, hv36 q kk])
  have hne : ∀ q : Fin 2048, (256 * (i 0).val + r.val ≠ 2048 * k.val + q.val) ↔ a ≠ col cc q := fun q => by
    constructor
    · intro h e
      apply h
      rw [← ha, e, hcol q]
    · intro h e
      apply h
      exact Fin.ext (by rw [ha, hcol q]; exact e)
  refine ⟨?_, ?_⟩
  · unfold stretch
    dsimp only
    refine (pay5_apply i _ x1 k acc.1 _ _ r).trans ?_
    unfold cpos
    refine congrArg (max (acc.1 (ix2 r (0 : Fin 1)))) (iSup_congr fun q => ?_)
    refine if_congr ?_ (hd2 q) rfl
    exact and_congr (Iff.of_eq (by rw [hl1, hv39 q])) (hne q)
  · unfold stretch
    dsimp only
    refine (pay6_apply _ x1 acc.2 _ _ r).trans ?_
    unfold cneg
    refine congrArg (min (acc.2 (ix2 r (0 : Fin 1)))) (iInf_congr fun q => ?_)
    refine if_congr ?_ (hd2 q) rfl
    exact Iff.of_eq (by rw [hl1, hv39 q]; rfl)

/-- Row `r` of what grid point `t` stores is the scan-in-stretches loss of anchor `256·t + r`. -/
theorem out_row (c : Dev nD) (i : grid0.Coords) (arg1 : Memref sig .tc .vmem S8192x128 .bf16) (harg1 : arg1.IsWhole) (arg2 : Memref sig .tc .vmem S256x1 .i32) (harg2 : arg2.IsWhole) (arg3 : Memref sig .tc .vmem S1x8192 .i32) (harg3 : arg3.IsWhole) (arg4 : Memref sig .tc .vmem S256x1 .f32) (harg4 : arg4.IsWhole)
    (x0 : Vec Ideal S8192x128 .bf16) (x1 : Vec Ideal S256x1 .i32) (x2 : Vec Ideal S1x8192 .i32)
    (x : Fin 8192 → Fin 128 → EReal) (lab : Fin 8192 → BitVec 32)
    (hx : ∀ (j : Fin 8192) (k : Fin 128), x0 (ix2 j k) = x j k)
    (hl1 : ∀ r : Fin 256, x1 (ix2 r (0 : Fin 1)) = lab ⟨256 * (i 0).val + r.val, row_lt i r⟩)
    (hl2 : ∀ j : Fin 8192, x2 (ix2 (0 : Fin 1) j) = lab j)
    (r : Fin 256) :
    out0_A_3 (F := Ideal) c i arg1 harg1 arg2 harg2 arg3 harg3 arg4 harg4 x0 x1 x2 (ix2 r (0 : Fin 1))
      = kerRow x lab ⟨256 * (i 0).val + r.val, row_lt i r⟩ := by
  rw [out_eq (F := Ideal) c i arg1 harg1 arg2 harg2 arg3 harg3 arg4 harg4 x0 x1 x2,
    carried_four (F := Ideal) Variants.none c none i arg1 harg1 arg2 harg2 arg3 harg3 arg4 harg4 (View.ld x0 (Rect.unit (s := S8192x128) (k0_off1 i) S256x128.size (k0_off1_inb i))) x1 x0 x2 (k0_pay1, k0_pay2)]
  refine (pay7_apply _ _ r).trans ?_
  have s0 := stretch_at i x0 x1 x2 x lab hx hl2 r ⟨256 * (i 0).val + r.val, row_lt i r⟩ rfl (hl1 r)
    ⟨0, lt_trips_0⟩ 0 rfl (k0_pay1, k0_pay2)
  have s1 := stretch_at i x0 x1 x2 x lab hx hl2 r ⟨256 * (i 0).val + r.val, row_lt i r⟩ rfl (hl1 r)
    ⟨1, lt_trips_1⟩ 1 rfl (stretch (F := Ideal) i (View.ld x0 (Rect.unit (s := S8192x128) (k0_off1 i) S256x128.size (k0_off1_inb i))) x1 x0 x2 ⟨0, lt_trips_0⟩ (k0_pay1, k0_pay2))
  have s2 := stretch_at i x0 x1 x2 x lab hx hl2 r ⟨256 * (i 0).val + r.val, row_lt i r⟩ rfl (hl1 r)
    ⟨2, lt_trips_2⟩ 2 rfl (stretch (F := Ideal) i (View.ld x0 (Rect.unit (s := S8192x128) (k0_off1 i) S256x128.size (k0_off1_inb i))) x1 x0 x2 ⟨1, lt_trips_1⟩
      (stretch (F := Ideal) i (View.ld x0 (Rect.unit (s := S8192x128) (k0_off1 i) S256x128.size (k0_off1_inb i))) x1 x0 x2 ⟨0, lt_trips_0⟩ (k0_pay1, k0_pay2)))
  have s3 := stretch_at i x0 x1 x2 x lab hx hl2 r ⟨256 * (i 0).val + r.val, row_lt i r⟩ rfl (hl1 r)
    ⟨3, lt_trips_3⟩ 3 rfl (stretch (F := Ideal) i (View.ld x0 (Rect.unit (s := S8192x128) (k0_off1 i) S256x128.size (k0_off1_inb i))) x1 x0 x2 ⟨2, lt_trips_2⟩
      (stretch (F := Ideal) i (View.ld x0 (Rect.unit (s := S8192x128) (k0_off1 i) S256x128.size (k0_off1_inb i))) x1 x0 x2 ⟨1, lt_trips_1⟩
        (stretch (F := Ideal) i (View.ld x0 (Rect.unit (s := S8192x128) (k0_off1 i) S256x128.size (k0_off1_inb i))) x1 x0 x2 ⟨0, lt_trips_0⟩ (k0_pay1, k0_pay2))))
  rw [s3.1, s3.2, s2.1, s2.2, s1.1, s1.2, s0.1, s0.2]
  dsimp only
  rw [pay1_apply r, pay2_apply r]
  rfl

end Cert.Triplet

end
-- ==== Proof.KerValue.lean ====
import proofs.«114721_j26319559590784_2_alg».proof.Proof.Gen.KernelIdeal.Frame
import proofs.«114721_j26319559590784_2_alg».proof.Proof.KerHost
import proofs.«114721_j26319559590784_2_alg».proof.Proof.KerBody
import Idealize.ShloMosaic.Lib.Pipeline.Value

/-!
  The array of per-anchor losses after the kernel's region.

  Grid point `t` works on rows `256·t … 256·t + 255`: its block of the output column holds, at row `r`, the loss of the
  anchor `256·t + r` over the normalised rows and the labels.  The 32 blocks tile the column, so after the region the
  column holds every anchor's loss.
-/

set_option maxRecDepth 16384

noncomputable section

namespace Cert.Triplet

open Idealize.ShloMosaic Idealize.ShloMosaic.TcCoe Idealize.ShloMosaic.ValueIdx Idealize.SL.Sem
open Cert.KernelIdeal Cert.KernelIdeal.Gen
open Idealize.ShloMosaic.Pipeline (Dat)

variable (m : (ℓ : Loc nD τ sig) → Buf (Elt Ideal) ℓ)

/-- The normalised rows of the argument array on core `c`. -/
def rowsOf (c : Dev nD) : Fin 8192 → Fin 128 → EReal :=
  xn (fun j k => (m ((c : Thread nD τ).loc main_arg0) : S8192x128.Idx → EReal) (ix2 j k))

/-- The labels on core `c`. -/
def labelsOf (c : Dev nD) : Fin 8192 → BitVec 32 :=
  fun j => (m ((c : Thread nD τ).loc main_arg1) : S8192x1.Idx → BitVec 32) (ix2 j (0 : Fin 1))

/-- The column of per-anchor losses. -/
def perAnchor (c : Dev nD) : S8192x1.Idx → EReal :=
  fun idx => kerRow (rowsOf m c) (labelsOf m c) ⟨(idx 0).val, idx2_lt0 idx⟩

/-- Where each window's block sits at grid point `t`, and the point's coordinate. -/
theorem idx_facts : ∀ t : Fin cfg0.N,
    win0_0.index t (0 : Fin 2) = 0 ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = t.val ∧ win0_3.index t (1 : Fin 2) = 0
    ∧ ((grid0.coords t) 0).val = t.val :=
  (by decide +kernel : ∀ t : Fin grid0.N, _)

/-- The whole normalised array is every point's block of the first window. -/
theorem iblk0_apply (c : Dev nD) (t : Fin cfg0.N) (j : Fin 8192) (k : Fin 128) :
    iblk m c 0 t (ix2 j k) = rowsOf m c j k := by
  show V m c main_v7 (((cfg0.win 0).blk t).view.emb (ix2 j k)) = _
  have h : ((cfg0.win 0).blk t).view.emb (ix2 j k) = ix2 j k := by
    obtain ⟨e0, e1, -⟩ := idx_facts t
    funext a; apply Fin.ext
    match a with
    | ⟨0, _⟩ => show win0_0.index t (0 : Fin 2) * 8192 + 1 * j.val = j.val; omega
    | ⟨1, _⟩ => show win0_0.index t (1 : Fin 2) * 128 + 1 * k.val = k.val; omega
  rw [h]
  exact V_rows m c j k

/-- Point `t`'s block of the label column: the labels of rows `256·t + r`. -/
theorem iblk1_apply (c : Dev nD) (t : Fin cfg0.N) (r : Fin 256) :
    iblk m c 1 t (ix2 r (0 : Fin 1)) = labelsOf m c ⟨256 * ((grid0.coords t) 0).val + r.val, row_lt (grid0.coords t) r⟩ := by
  show V m c main_v8 (((cfg0.win 1).blk t).view.emb (ix2 r (0 : Fin 1))) = _
  obtain ⟨-, -, e2, e3, -, -, -, -, e8⟩ := idx_facts t
  have h : ((cfg0.win 1).blk t).view.emb (ix2 r (0 : Fin 1))
      = ix2 (⟨256 * ((grid0.coords t) 0).val + r.val, row_lt (grid0.coords t) r⟩ : Fin 8192) (0 : Fin 1) := by
    funext a; apply Fin.ext
    match a with
    | ⟨0, _⟩ => show win0_1.index t (0 : Fin 2) * 256 + 1 * r.val = 256 * ((grid0.coords t) 0).val + r.val; omega
    | ⟨1, _⟩ => show win0_1.index t (1 : Fin 2) * 1 + 1 * 0 = 0; omega
  rw [h]
  exact V_labels_col m c _

/-- The whole row of labels is every point's block of the third window. -/
theorem iblk2_apply (c : Dev nD) (t : Fin cfg0.N) (j : Fin 8192) :
    iblk m c 2 t (ix2 (0 : Fin 1) j) = labelsOf m c j := by
  show V m c main_v9 (((cfg0.win 2).blk t).view.emb (ix2 (0 : Fin 1) j)) = _
  have h : ((cfg0.win 2).blk t).view.emb (ix2 (0 : Fin 1) j) = ix2 (0 : Fin 1) j := by
    obtain ⟨-, -, -, -, e4, e5, -⟩ := idx_facts t
    funext a; apply Fin.ext
    match a with
    | ⟨0, _⟩ => show win0_2.index t (0 : Fin 2) * 1 + 1 * 0 = 0; omega
    | ⟨1, _⟩ => show win0_2.index t (1 : Fin 2) * 8192 + 1 * j.val = j.val; omega
  rw [h]
  exact V_labels_row m c j

/-- What point `t` writes back is block `t` of the column of per-anchor losses. -/
theorem flushed3_eq (c : Dev nD) (t : Fin cfg0.N) :
    (dats m 0 c).flushed 3 t = ((cfg0.win 3).blk t).view.read (Elt Ideal) (perAnchor m c) := by
  show (cfg0.win 3).cut (grid0.coords t) ((dats m 0 c).after 3 t) = _
  rw [after0_3]
  funext y
  obtain ⟨r, z, rfl⟩ : ∃ (r : Fin 256) (z : Fin 1), y = ix2 r z := ⟨y 0, y 1, eq_ix2 y⟩
  obtain rfl : z = 0 := Subsingleton.elim _ _
  show outsAt0 m c t (ix2 r (0 : Fin 1)) = perAnchor m c (((cfg0.win 3).blk t).view.emb (ix2 r (0 : Fin 1)))
  unfold outsAt0
  refine (out_row c (grid0.coords t) (ms0_0 t) (hs0_0 t) (ms0_1 t) (hs0_1 t) (ms0_2 t) (hs0_2 t) (ms0_3 t) (hs0_3 t)
    (iblk m c 0 t) (iblk m c 1 t) (iblk m c 2 t) (rowsOf m c) (labelsOf m c)
    (iblk0_apply m c t) (iblk1_apply m c t) (iblk2_apply m c t) r).trans ?_
  unfold perAnchor
  refine congrArg (kerRow (rowsOf m c) (labelsOf m c)) (Fin.ext ?_)
  obtain ⟨-, -, -, -, -, -, e6, -, e8⟩ := idx_facts t
  show 256 * ((grid0.coords t) 0).val + r.val = win0_3.index t (0 : Fin 2) * 256 + 1 * r.val
  omega

/-- An index of the column is in point `t`'s block iff its coordinates are in the block's ranges. -/
theorem mem_blk3 (t : Fin cfg0.N) (i : S8192x1.Idx) :
    i ∈ ((cfg0.win 3).blk t).view.set ↔ ∀ a : Fin 2, win0_3.index t a * S256x1.size a ≤ (i a).val ∧ (i a).val < win0_3.index t a * S256x1.size a + S256x1.size a := by
  show i ∈ ((View.whole main_v10).slice (win0_3.rect t)).set ↔ _
  rw [View.set_slice_whole, Rect.mem_set_unit]
  exact Iff.rfl

/-- Row `i` of the column lies in the block of point `i / 256`. -/
theorem cover3 (i : S8192x1.Idx) :
    ∃ t : Fin cfg0.N, (cfg0.win 3).flush t = true ∧ i ∈ ((cfg0.win 3).blk t).view.set := by
  have hi0 : (i 0).val < 8192 := (i 0).isLt
  have hi1 : (i 1).val < 1 := (i 1).isLt
  have hN : cfg0.N = 32 := N_0
  let t : Fin cfg0.N := ⟨(i 0).val / 256, by rw [hN]; omega⟩
  refine ⟨t, flush0_3 t, ?_⟩
  rw [mem_blk3]
  obtain ⟨-, -, -, -, -, -, e6, e7, -⟩ := idx_facts t
  have ht : t.val = (i 0).val / 256 := rfl
  intro a
  match a with
  | ⟨0, _⟩ => show win0_3.index t (0 : Fin 2) * 256 ≤ (i 0).val ∧ (i 0).val < win0_3.index t (0 : Fin 2) * 256 + 256; omega
  | ⟨1, _⟩ => show win0_3.index t (1 : Fin 2) * 1 ≤ (i 1).val ∧ (i 1).val < win0_3.index t (1 : Fin 2) * 1 + 1; omega

/-- After the region the output column holds every anchor's loss. -/
theorem final3 (c : Dev nD) : (dats m 0 c).arrAt 3 cfg0.N = perAnchor m c :=
  (dats m 0 c).arrAt_eq_of_cover 3 (perAnchor m c) (fun t _ => flushed3_eq m c t) cover3

end Cert.Triplet

end
-- ==== Proof.Tail.lean ====
import proofs.«114721_j26319559590784_2_alg».proof.Proof.HostNorm
import Idealize.ShloMosaic.PureOps

/-! The mean that follows the per-anchor losses: their sum divided by the number of them that are positive, that
    number raised to one when none is. -/

noncomputable section

namespace Cert.Triplet

open Idealize.ShloMosaic

/-- The sum of the per-anchor losses `p`, from the zero word, divided by the count of the positive ones, the count
    taken as an integer sum of the comparisons' bits and raised to one when it is zero. -/
def lossTail (hb : S0.BroadcastsInDim SR (![] : Fin 0 → Fin SR.rank)) (hr : SR.ReducesTo [0] S0) (h0 : 0 < S0.numel)
    (hlt : 1 < 32) (p : FVec Ideal SR .f32) : FVec Ideal S0 .f32 :=
  Host.divf (F := Ideal)
    (Host.reduceAdd (F := Ideal) p (constant (F := Ideal) S0 .f32 0x00000000#32) hr h0)
    (sitofp (F := Ideal) .f32
      (maxsi
        (Host.reduce IntOp.addi
          (extui 32 (cmpf .ogt p (broadcastInDim SR ![] hb (constant (F := Ideal) S0 .f32 0x00000000#32))) hlt)
          (constantI S0 32 0#32) hr h0)
        (constantI S0 32 1#32)))

end Cert.Triplet

end
-- ==== Proof.KerTail.lean ====
import proofs.«114721_j26319559590784_2_alg».proof.Proof.Tail
import proofs.«114721_j26319559590784_2_alg».proof.Proof.Gen.KernelIdeal.Frame
import Idealize.ShloMosaic.Lib.StableHlo.Run

/-! The arrangement that scans squared distances in stretches ends with the mean of the per-anchor losses over the
    positive ones. -/

noncomputable section

namespace Cert.Triplet

open Idealize.ShloMosaic Idealize.ShloMosaic.TcCoe Idealize.ShloMosaic.StableHlo Cert.KernelIdeal

/-- From any contents of the arrays, the operations that follow the scan leave in the last array the mean over the
    positive losses of the column of per-anchor losses, flattened. -/
theorem ker_tail (W : Valuation τ sig (Elt Ideal)) :
    (StableHlo.after (Cert.KernelIdeal.Gen.hostOps1 (F := Ideal)) W (Proc.devRef .tc main_v19) : S_.Idx → EReal)
      = lossTail Cert.KernelIdeal.Gen.bcast_S_S8192 Cert.KernelIdeal.Gen.reducesTo_S8192_S_d0
          Cert.KernelIdeal.Gen.h_S_ Cert.KernelIdeal.Gen.natLt_1_32
          (shapeCast S8192 (W (Proc.devRef .tc main_v10) : S8192x1.Idx → EReal)
            Cert.KernelIdeal.Gen.shapeCasts_S8192x1_S8192) := by
  after_results
  rfl

end Cert.Triplet

end
-- ==== Proof.KerRun.lean ====
import proofs.«114721_j26319559590784_2_alg».proof.Proof.KerValue
import proofs.«114721_j26319559590784_2_alg».proof.Proof.KerTail

/-!
  The kernel's run with its result named: the mean of the positive per-anchor losses over the normalised rows.
-/

set_option maxRecDepth 16384

noncomputable section

namespace Cert.Triplet

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ) (ρ : Dev nD → PrngReg)

/-- The per-anchor losses as a flat vector. -/
def perAnchorFlat (c : Dev nD) : S8192.Idx → EReal :=
  fun i => kerRow (rowsOf m c) (labelsOf m c) ⟨(i 0).val, (i 0).isLt⟩

/-- The loss the kernel's program returns on core `c`. -/
def kerLoss (c : Dev nD) : S_.Idx → EReal :=
  lossTail bcast_S_S8192 reducesTo_S8192_S_d0 h_S_ natLt_1_32 (perAnchorFlat m c)

/-- The host operations after the region turn the output column into that loss. -/
theorem tail_value (c : Dev nD) :
    Pipeline.afterTail₀ cfgs (dats m) 0 (V0 m) [hostOps1] c main_v19 = kerLoss m c := by
  unfold Pipeline.afterTail₀
  show StableHlo.after hostOps1 _ (Proc.devRef .tc main_v19) = _
  rw [ker_tail]
  unfold kerLoss
  refine congrArg (lossTail bcast_S_S8192 reducesTo_S8192_S_d0 h_S_ natLt_1_32) ?_
  rw [show Pipeline.withArrays spec0 c (V0 m c) (fun w => (dats m 0 c).arrAt w cfg0.N) (Proc.devRef .tc main_v10)
      = (dats m 0 c).arrAt 3 cfg0.N from Pipeline.withArrays_arr spec0 launch0.win.arr_inj c _ _ 3]
  rw [final3]
  funext i
  obtain ⟨j, rfl⟩ : ∃ j : Fin 8192, i = ix1 j := ⟨i 0, eq_ix1 i⟩
  exact shapeCast_apply (perAnchor m c) shapeCasts_S8192x1_S8192 (ix1 j) (ix2 j (0 : Fin 1)) (by
    rewrite [Shape.rowMajor_val_two, Shape.rowMajor_val_one]; show j.val * 1 + 0 = j.val; omega)

/-- Every weakly fair execution of the kernel's program ends with its result at `kerLoss` and the arguments unchanged. -/
theorem ker_run : θ_run defs (onTc (τ := τ) (main (F := Ideal))) ⟨m, fun _ => 0, ρ⟩ (fun r => ∀ c : Dev nD,
      r.2.mem ((c.tc : Thread nD τ).loc main_v19) = kerLoss m c
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨((h c).2 main_v19 (Pipeline.mem_restRefs_of main_v19 (by decide) (by decide))).trans (tail_value m c),
     ((h c).2 main_arg0 (Pipeline.mem_restRefs_of main_arg0 (by decide) (by decide))).trans (W_main_arg0 m (dats m) c),
     ((h c).2 main_arg1 (Pipeline.mem_restRefs_of main_arg1 (by decide) (by decide))).trans (W_main_arg1 m (dats m) c)⟩)
    (run_main m ρ)

end Cert.Triplet

end
-- ==== Proof.RefReadA.lean ====
/-
  Small general facts used when the reference program is read at an index: the source index of a reduction of a
  matrix along its columns, a one-bit "or" taken along an axis, one-bit words and comparisons as propositions.
-/
import Idealize.ShloMosaic.PureOps.Ideal.Laws
import Idealize.ShloMosaic.PureOps.Reduce
import Idealize.ShloMosaic.Lib.ValueIdx

noncomputable section

namespace Cert.Triplet

open Idealize.ShloMosaic Idealize.ShloMosaic.ValueIdx

/-! ### Reducing a matrix along its columns -/

/-- Row `i` of a matrix with the column `k` put back is the entry `(i, k)`. -/
theorem lift_ix1 {m n : Nat} (h : (⟨2, ![m, n]⟩ : Shape).Reduces [1] ⟨1, ![m]⟩) (i : Fin m) (k : Fin n) :
    h.lift (ix1 i) k = ix2 i k := by
  funext c
  apply Fin.ext
  show h.liftVal (ix1 i) k.val c = (ix2 i k c).val
  unfold Shape.Reduces.liftVal
  match c with
  | ⟨0, _⟩ => rfl
  | ⟨1, _⟩ => rfl

/-! ### One-bit words -/

/-- A one-bit "or" is set exactly when one of its operands is. -/
theorem ori_eq_one (x y : BitVec 1) : IntOp.ori x y = 1#1 ↔ x = 1#1 ∨ y = 1#1 := by
  rcases BitVec.eq_zero_or_eq_one x with rfl | rfl <;> rcases BitVec.eq_zero_or_eq_one y with rfl | rfl <;> decide

/-- A one-bit "and" is set exactly when both of its operands are. -/
theorem andi_eq_one (x y : BitVec 1) : IntOp.andi x y = 1#1 ↔ x = 1#1 ∧ y = 1#1 := by
  rcases BitVec.eq_zero_or_eq_one x with rfl | rfl <;> rcases BitVec.eq_zero_or_eq_one y with rfl | rfl <;> decide

/-- A one-bit complement is set exactly when the word is not. -/
theorem not_eq_one (x : BitVec 1) : ~~~x = 1#1 ↔ ¬ x = 1#1 := by
  rcases BitVec.eq_zero_or_eq_one x with rfl | rfl <;> decide

/-- The bit of a decided proposition is set exactly when the proposition holds. -/
theorem ofBool_decide_eq_one (p : Prop) [Decidable p] : BitVec.ofBool (decide p) = 1#1 ↔ p := by
  by_cases hp : p <;> simp [hp]

/-- Equality of words, as a bit. -/
theorem cmpi_eq_eq_one {w : Nat} (x y : BitVec w) : IntOp.cmpi .eq x y = 1#1 ↔ x = y := by
  unfold IntOp.cmpi
  by_cases hxy : x = y
  · simp [hxy]
  · have hb : (x == y) = false := beq_eq_false_iff_ne.2 hxy
    simp [hb, hxy]

/-- "Greater than" on the extended reals, as a bit. -/
theorem cmp_ogt_eq_one (x y : EReal) : Ideal.cmp .ogt x y = 1#1 ↔ y < x := by
  unfold Ideal.cmp
  exact ofBool_decide_eq_one _

/-- Coordinates below `2 ^ 32` are equal when their 32-bit words are. -/
theorem ofNat32_inj {a b : Nat} (ha : a < 2 ^ 32) (hb : b < 2 ^ 32) :
    BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

/-- A select on a bit is the `if` on the bit being set. -/
theorem select_eq_ite {α : Type} (c : BitVec 1) (a b : α) (p : Prop) [Decidable p] (hc : c = 1#1 ↔ p) :
    Scalar.select c a b = if p then a else b := by
  by_cases hp : p
  · rw [if_pos hp, hc.2 hp]; exact select_one a b
  · rw [if_neg hp, eq_zero_of_ne_one (fun h => hp (hc.1 h))]; exact select_zero a b

/-! ### A one-bit "or" along an axis -/

/-- A fold of "or" from the clear bit over a finite set is set exactly when some entry is. -/
theorem fold_ori_eq_one {ι : Type} [DecidableEq ι] (s : Finset ι) (f : ι → BitVec 1) :
    s.fold IntOp.ori 0#1 f = 1#1 ↔ ∃ k ∈ s, f k = 1#1 := by
  induction s using Finset.induction_on with
  | empty => simp
  | insert a s ha ih =>
    rw [Finset.fold_insert ha, ori_eq_one, ih]
    constructor
    · rintro (h | ⟨k, hk, h⟩)
      · exact ⟨a, Finset.mem_insert_self a s, h⟩
      · exact ⟨k, Finset.mem_insert_of_mem hk, h⟩
    · rintro ⟨k, hk, h⟩
      rcases Finset.mem_insert.1 hk with rfl | hk
      · exact Or.inl h
      · exact Or.inr ⟨k, hk, h⟩

/-- The host's one-operand reduce with an "or" body from the clear bit along one axis is set at a reduced index exactly
    when some entry along that axis is. -/
theorem hostReduce_ori_single_eq_one {s t u : Shape} {a : Fin s.rank} (x : IVec s 1)
    (h' : s.ReducesTo [a] t) (h : s.Reduces [a] t) (hu : 0 < u.numel) (j : t.Idx) :
    Host.reduce IntOp.ori x (constantI u 1 0#1) h' hu j = 1#1 ↔ ∃ k : Fin (s.size a), x (h.lift j k) = 1#1 := by
  rw [Host.reduce_eq_fold_single IntOp.ori x _ h' h hu]
  show (Finset.univ : Finset (Fin (s.size a))).fold IntOp.ori 0#1 (x ∘ h.lift j) = 1#1 ↔ _
  rw [fold_ori_eq_one]
  exact ⟨fun ⟨k, _, hk⟩ => ⟨k, hk⟩, fun ⟨k, hk⟩ => ⟨k, Finset.mem_univ k, hk⟩⟩

end Cert.Triplet

end
-- ==== Proof.RefReadB.lean ====
/-
  The reference program read element by element, up to the two masked distance matrices: the normalised rows, their
  squared norms and inner products, the guarded distance, and the positive / negative masks.
-/
import proofs.«114721_j26319559590784_2_alg».proof.Proof.Spec
import proofs.«114721_j26319559590784_2_alg».proof.Proof.Gen.ReferenceIdeal.Read
import proofs.«114721_j26319559590784_2_alg».proof.Proof.RefReadA

noncomputable section

namespace Cert.Triplet

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

/-- The input array by its two coordinates. -/
abbrev arr (x0 : (⟨S8192x128, .f32⟩ : BufTy).Contents (Elt Ideal)) : Fin 8192 → Fin 128 → EReal := fun j k => x0 (ix2 j k)
/-- The labels by their row. -/
abbrev labs (x1 : (⟨S8192x1, .i32⟩ : BufTy).Contents (Elt Ideal)) : Fin 8192 → BitVec 32 := fun j => x1 (ix2 j 0)

variable (x0 : (⟨S8192x128, .f32⟩ : BufTy).Contents (Elt Ideal)) (x1 : (⟨S8192x1, .i32⟩ : BufTy).Contents (Elt Ideal))

/-! ### The normalised rows, their squared norms and inner products -/

/-- The squared norm of an input row, as the program sums it. -/
theorem call0_v1_at (j : Fin 8192) : val_main_call0_v1 (F := Ideal) x0 (ix1 j) = sqn (arr x0) j := by
  rw [val_main_call0_v1_apply]
  refine congrArg (_ + ·) (Finset.sum_congr rfl fun k _ => ?_)
  have e : idx_main_call0_v1 (ix1 j) k = ix2 j k := funext fun a => by match a with | ⟨0, _⟩ => rfl | ⟨1, _⟩ => rfl
  rw [e]
  rfl

/-- An entry divided by the norm of its row. -/
theorem v3_at (j : Fin 8192) (k : Fin 128) : val_main_v3 (F := Ideal) x0 (ix2 j k) = xn (arr x0) j k := by
  rw [val_main_v3_apply, val_main_v2_apply, val_main_v1_apply, val_main_call0_v2_apply]
  have e : idx_main_call0_v2 (idx_main_v2 (ix2 j k)) = ix1 j := funext fun a => by match a with | ⟨0, _⟩ => rfl
  rw [e, call0_v1_at]
  rfl

/-- The squared norm of a normalised row. -/
theorem v5_at (j : Fin 8192) : val_main_v5 (F := Ideal) x0 (ix1 j) = sqn (xn (arr x0)) j := by
  rw [val_main_v5_apply]
  refine congrArg (_ + ·) (Finset.sum_congr rfl fun k _ => ?_)
  have e : idx_main_v5 (ix1 j) k = ix2 j k := funext fun a => by match a with | ⟨0, _⟩ => rfl | ⟨1, _⟩ => rfl
  rw [e, val_main_v4_apply, v3_at]
  rfl

/-- The two squared norms, broadcast along the rows and along the columns, added. -/
theorem v10_at (i j : Fin 8192) :
    val_main_v10 (F := Ideal) x0 (ix2 i j) = sqn (xn (arr x0)) i + sqn (xn (arr x0)) j := by
  rw [val_main_v10_apply, val_main_v8_apply, val_main_v6_apply, val_main_v9_apply, val_main_v7_apply]
  have e1 : idx_main_v6 (idx_main_v8 (ix2 i j)) = ix1 i := funext fun a => by match a with | ⟨0, _⟩ => rfl
  have e2 : idx_main_v7 (idx_main_v9 (ix2 i j)) = ix1 j := funext fun a => by match a with | ⟨0, _⟩ => rfl
  rw [e1, e2, v5_at, v5_at]
  rfl

/-- The inner product of two normalised rows. -/
theorem v12_at (i j : Fin 8192) : val_main_v12 (F := Ideal) x0 (ix2 i j) = dot (xn (arr x0)) i j := by
  rw [val_main_v12_apply]
  unfold dot
  refine Finset.sum_congr rfl fun k _ => ?_
  have e1 : lidx_main_v12 (ix2 i j) k = ix2 i k := funext fun a => by match a with | ⟨0, _⟩ => rfl | ⟨1, _⟩ => rfl
  have e2 : idx_main_v11 (ridx_main_v12 (ix2 i j) k) = ix2 j k :=
    funext fun a => by match a with | ⟨0, _⟩ => rfl | ⟨1, _⟩ => rfl
  rw [val_main_v11_apply, e1, e2, v3_at, v3_at]

/-! ### The guarded distance -/

/-- The squared distance, clamped at zero. -/
theorem v17_at (i j : Fin 8192) : val_main_v17 (F := Ideal) x0 (ix2 i j) = d2R (xn (arr x0)) i j := by
  rw [val_main_v17_apply, val_main_v15_apply, val_main_v14_apply, v10_at, v12_at, val_main_v13_apply,
    val_main_v16_apply]
  rfl

/-- The distance: the square root where the squared distance is positive (taken of `1` elsewhere, then discarded),
    zero elsewhere. -/
theorem v24_at (i j : Fin 8192) : val_main_v24 (F := Ideal) x0 (ix2 i j) = distR (xn (arr x0)) i j := by
  simp only [val_main_v24_apply, val_main_v23_apply, val_main_v22_apply, val_main_v19_apply, val_main_v21_apply,
    v17_at, val_main_v18_apply, val_main_v20_apply, val_main_call1_v1_apply, val_main_call2_v1_apply,
    val_main_call1_v0_apply, val_main_call2_v0_apply, val_main_cst_2_apply, val_main_cst_3_apply,
    val_main_cst_4_apply, val_main_cst_5_apply, Ideal.cmpf_def, Ideal.ofBits_def, Ideal.hostUnary_sqrt_def]
  rw [select_eq_ite _ _ _ (ZERO < d2R (xn (arr x0)) i j) (cmp_ogt_eq_one _ _),
    select_eq_ite _ _ _ (ZERO < d2R (xn (arr x0)) i j) (cmp_ogt_eq_one _ _)]
  rfl

/-! ### The masks -/

/-- The label of the row, broadcast along the row. -/
theorem v27_at (i j : Fin 8192) : val_main_v27 (F := Ideal) x1 (ix2 i j) = labs x1 i := by
  rw [val_main_v27_apply, val_main_v25_apply, val_main_v0_apply]
  exact congrArg x1 (funext fun a => Fin.ext (by
    match a with
    | ⟨0, _⟩ => exact Nat.div_one _
    | ⟨1, _⟩ => rfl))

/-- The label of the column, broadcast along the column. -/
theorem v28_at (i j : Fin 8192) : val_main_v28 (F := Ideal) x1 (ix2 i j) = labs x1 j := by
  rw [val_main_v28_apply, val_main_v26_apply, val_main_v0_apply]
  exact congrArg x1 (funext fun a => Fin.ext (by
    match a with
    | ⟨0, _⟩ => exact Nat.div_one _
    | ⟨1, _⟩ => rfl))

/-- The diagonal: the words of the two coordinates agree exactly when the coordinates do. -/
theorem v34_at (i j : Fin 8192) : val_main_v34 (F := Ideal) (ix2 i j) = 1#1 ↔ i = j := by
  rw [val_main_v34_apply, val_main_v33_apply, val_main_v30_apply, val_main_v31_apply, val_main_v32_apply,
    val_main_c_apply, cmpi_eq_eq_one]
  show BitVec.ofNat 32 i.val + 0#32 = BitVec.ofNat 32 j.val ↔ i = j
  rw [BitVec.add_zero, ofNat32_inj (by have := i.isLt; omega) (by have := j.isLt; omega)]
  exact Fin.val_inj

/-- The positive mask: the same label off the diagonal. -/
theorem v36_at (i j : Fin 8192) : val_main_v36 (F := Ideal) x1 (ix2 i j) = 1#1 ↔ posM (labs x1) i j := by
  rw [val_main_v36_apply, andi_eq_one, val_main_v35_apply, not_eq_one, v34_at, val_main_v29_apply, cmpi_eq_eq_one,
    v27_at, v28_at]
  exact Iff.rfl

/-- The negative mask: another label. -/
theorem v37_at (i j : Fin 8192) : val_main_v37 (F := Ideal) x1 (ix2 i j) = 1#1 ↔ negM (labs x1) i j := by
  rw [val_main_v37_apply, not_eq_one, val_main_v29_apply, cmpi_eq_eq_one, v27_at, v28_at]
  exact Iff.rfl

/-! ### The two masked distance matrices -/

/-- The distances to the positives, the negative stand-in elsewhere. -/
theorem v38_at (i j : Fin 8192) :
    val_main_v38 (F := Ideal) x0 x1 (ix2 i j) = if posM (labs x1) i j then distR (xn (arr x0)) i j else NEG := by
  rw [val_main_v38_apply, select_eq_ite _ _ _ (posM (labs x1) i j) (v36_at x1 i j), v24_at, val_main_call3_v0_apply]
  rfl

/-- The distances to the negatives, the positive stand-in elsewhere. -/
theorem v40_at (i j : Fin 8192) :
    val_main_v40 (F := Ideal) x0 x1 (ix2 i j) = if negM (labs x1) i j then distR (xn (arr x0)) i j else POS := by
  rw [val_main_v40_apply, select_eq_ite _ _ _ (negM (labs x1) i j) (v37_at x1 i j), v24_at, val_main_call4_v0_apply]
  rfl

end Cert.Triplet

end
-- ==== Proof.RefRead.lean ====
/-
  The reference program's per-anchor loss, read at an anchor: the two masked distance matrices reduced along the
  columns (a maximum, a minimum, and the two "or"s that say whether the anchor has a positive and a negative), and
  the clamped, margin-shifted difference selected on the anchor counting.
-/
import proofs.«114721_j26319559590784_2_alg».proof.Proof.RefReadB
import proofs.«114721_j26319559590784_2_alg».proof.Proof.LibMinReduce
import proofs.«114721_j26319559590784_2_alg».proof.Proof.LibMaxReduce

noncomputable section

namespace Cert.Triplet

open Cert.ReferenceIdeal Cert.ReferenceIdeal.Gen Cert.ReferenceIdeal.Read Idealize.ShloMosaic Idealize.ShloMosaic.TcCoe Idealize.SL.Sem Idealize.ShloMosaic.StableHlo
open Idealize.ShloMosaic.ValueIdx

variable (x0 : (⟨S8192x128, .f32⟩ : BufTy).Contents (Elt Ideal)) (x1 : (⟨S8192x1, .i32⟩ : BufTy).Contents (Elt Ideal))

/-- The square distance matrix loses its columns to the vector of its rows. -/
theorem reduces_cols : S8192x8192.Reduces [1] S8192 := by decide

/-- The hardest positive: the largest entry of the anchor's row of positive distances. -/
theorem v39_at (i : Fin 8192) :
    val_main_v39 (F := Ideal) x0 x1 (ix1 i)
      = ⨆ j : Fin 8192, if posM (labs x1) i j then distR (xn (arr x0)) i j else NEG := by
  unfold val_main_v39 val_main_cst_7
  rw [Ideal.hostReduce_maximumf_single_iSup _ reducesTo_S8192x8192_S8192_d1 reduces_cols h_S_ (ix1 i)]
  show (⨆ k : Fin 8192, val_main_v38 (F := Ideal) x0 x1 (reduces_cols.lift (ix1 i) k)) = _
  refine iSup_congr fun k => ?_
  exact (congrArg (val_main_v38 (F := Ideal) x0 x1) (lift_ix1 reduces_cols i k)).trans (v38_at x0 x1 i k)

/-- The hardest negative: the smallest entry of the anchor's row of negative distances. -/
theorem v41_at (i : Fin 8192) :
    val_main_v41 (F := Ideal) x0 x1 (ix1 i)
      = ⨅ j : Fin 8192, if negM (labs x1) i j then distR (xn (arr x0)) i j else POS := by
  unfold val_main_v41 val_main_cst_9
  rw [Ideal.hostReduce_minimumf_single_iInf _ reducesTo_S8192x8192_S8192_d1 reduces_cols h_S_ (ix1 i)]
  show (⨅ k : Fin 8192, val_main_v40 (F := Ideal) x0 x1 (reduces_cols.lift (ix1 i) k)) = _
  refine iInf_congr fun k => ?_
  exact (congrArg (val_main_v40 (F := Ideal) x0 x1) (lift_ix1 reduces_cols i k)).trans (v40_at x0 x1 i k)

/-- The anchor has a positive. -/
theorem v42_at (i : Fin 8192) : val_main_v42 (F := Ideal) x1 (ix1 i) = 1#1 ↔ ∃ j, posM (labs x1) i j := by
  unfold val_main_v42 val_main_c_10
  rw [hostReduce_ori_single_eq_one _ reducesTo_S8192x8192_S8192_d1 reduces_cols h_S_ (ix1 i)]
  show (∃ k : Fin 8192, val_main_v36 (F := Ideal) x1 (reduces_cols.lift (ix1 i) k) = 1#1) ↔ _
  refine exists_congr fun k => ?_
  rw [lift_ix1 reduces_cols i k]
  exact v36_at x1 i k

/-- The anchor has a negative. -/
theorem v43_at (i : Fin 8192) : val_main_v43 (F := Ideal) x1 (ix1 i) = 1#1 ↔ ∃ j, negM (labs x1) i j := by
  unfold val_main_v43 val_main_c_11
  rw [hostReduce_ori_single_eq_one _ reducesTo_S8192x8192_S8192_d1 reduces_cols h_S_ (ix1 i)]
  show (∃ k : Fin 8192, val_main_v37 (F := Ideal) x1 (reduces_cols.lift (ix1 i) k) = 1#1) ↔ _
  refine exists_congr fun k => ?_
  rw [lift_ix1 reduces_cols i k]
  exact v37_at x1 i k

/-- The anchor counts: it has a positive and a negative. -/
theorem v44_at (i : Fin 8192) :
    val_main_v44 (F := Ideal) x1 (ix1 i) = 1#1 ↔ (∃ j, posM (labs x1) i j) ∧ (∃ j, negM (labs x1) i j) := by
  rw [val_main_v44_apply, andi_eq_one, v42_at, v43_at]

/-- The per-anchor loss vector of the reference program, before its final mean, is the loss of the anchor with the
    distances taken first. -/
theorem val_v50_row (x0 : (⟨S8192x128, .f32⟩ : BufTy).Contents (Elt Ideal))
    (x1 : (⟨S8192x1, .i32⟩ : BufTy).Contents (Elt Ideal)) (i : Fin 8192) :
    Cert.ReferenceIdeal.Read.val_main_v50 (F := Ideal) x0 x1 (ix1 i)
      = refRow (xn fun j k => x0 (ix2 j k)) (fun j => x1 (ix2 j 0)) i := by
  show _ = refRow (xn (arr x0)) (labs x1) i
  rw [val_main_v50_apply, val_main_v49_apply, val_main_v47_apply, val_main_v45_apply, v39_at, v41_at,
    val_main_v46_apply, val_main_v48_apply, val_main_call5_v1_apply]
  unfold refRow
  by_cases hp : (∃ j, posM (labs x1) i j) ∧ (∃ j, negM (labs x1) i j)
  · rw [if_pos hp, (v44_at x1 i).2 hp, select_one]
    rfl
  · rw [if_neg hp, eq_zero_of_ne_one (fun h => hp ((v44_at x1 i).1 h)), select_zero]
    rfl

end Cert.Triplet

end
-- ==== Proof.RefTail.lean ====
import proofs.«114721_j26319559590784_2_alg».proof.Proof.Tail
import proofs.«114721_j26319559590784_2_alg».proof.Proof.Gen.ReferenceIdeal.Read

/-! The arrangement that takes distances first ends with the mean of the per-anchor losses over the positive ones. -/

noncomputable section

namespace Cert.Triplet

open Idealize.ShloMosaic

/-- The last stage of the distances-first arrangement is the mean over the positive losses of the stage that holds
    the per-anchor losses: the stages between are, one by one, the operations of that mean. -/
theorem ref_tail (x0 : (⟨Cert.ReferenceIdeal.S8192x128, .f32⟩ : BufTy).Contents (Elt Ideal))
    (x1 : (⟨Cert.ReferenceIdeal.S8192x1, .i32⟩ : BufTy).Contents (Elt Ideal)) :
    Cert.ReferenceIdeal.Read.val_main_v58 (F := Ideal) x0 x1
      = lossTail Cert.ReferenceIdeal.Gen.bcast_S_S8192 Cert.ReferenceIdeal.Gen.reducesTo_S8192_S_d0
          Cert.ReferenceIdeal.Gen.h_S_ Cert.ReferenceIdeal.Gen.natLt_1_32
          (Cert.ReferenceIdeal.Read.val_main_v50 (F := Ideal) x0 x1) := by
  unfold Cert.ReferenceIdeal.Read.val_main_v58 Cert.ReferenceIdeal.Read.val_main_v57
    Cert.ReferenceIdeal.Read.val_main_v56 Cert.ReferenceIdeal.Read.val_main_v55
    Cert.ReferenceIdeal.Read.val_main_v54 Cert.ReferenceIdeal.Read.val_main_v53
    Cert.ReferenceIdeal.Read.val_main_v52 Cert.ReferenceIdeal.Read.val_main_v51
  generalize Cert.ReferenceIdeal.Read.val_main_v50 (F := Ideal) x0 x1 = p
  rfl

end Cert.Triplet

end
-- ==== Proof.Consts.lean ====
import proofs.«114721_j26319559590784_2_alg».proof.Proof.Spec

/-! The exact real values of the float words that the two arrangements of the loss carry. -/

noncomputable section

namespace Cert.Triplet

open Idealize.ShloMosaic

theorem ZERO_eq : ZERO = 0 := by
  simp [Ideal.ofBits, Ideal.ieee]
theorem ONE_eq : ONE = 1 := by
  simp [Ideal.ofBits, Ideal.ieee, -EReal.coe_mul]; norm_num
theorem TWO_eq : TWO = 2 := by
  simp [Ideal.ofBits, Ideal.ieee, -EReal.coe_mul]; norm_num; rfl
/-- `1e30` rounded to f32 is `13234890 · 2^76`. -/
theorem POS_eq : POS = ((13234890 * 2 ^ 76 : ℝ) : EReal) := by
  simp [Ideal.ofBits, Ideal.ieee, -EReal.coe_mul] <;> norm_num
theorem NEG_eq : NEG = ((-(13234890 * 2 ^ 76) : ℝ) : EReal) := by
  simp [Ideal.ofBits, Ideal.ieee, -EReal.coe_mul] <;> norm_num
/-- `5e29` rounded to f32 is `13234890 · 2^75`. -/
theorem POSH_eq : POSH = ((13234890 * 2 ^ 75 : ℝ) : EReal) := by
  simp [Ideal.ofBits, Ideal.ieee, -EReal.coe_mul] <;> norm_num
theorem NEGH_eq : NEGH = ((-(13234890 * 2 ^ 75) : ℝ) : EReal) := by
  simp [Ideal.ofBits, Ideal.ieee, -EReal.coe_mul] <;> norm_num
/-- `0.05` rounded to f32 is `13421773 / 2^28`. -/
theorem MARGIN_eq : MARGIN = ((13421773 / 2 ^ 28 : ℝ) : EReal) := by
  simp [Ideal.ofBits, Ideal.ieee, -EReal.coe_mul]; norm_num

end Cert.Triplet

end
-- ==== Proof.RowMathA.lean ====
import proofs.«114721_j26319559590784_2_alg».proof.Proof.Spec
import proofs.«114721_j26319559590784_2_alg».proof.Proof.Consts

/-!
  Rows of real entries and unit norm: the inner product of two rows is a real number `t ≥ -1`, the squared
  distance `max (2 - 2t) 0` is a real number in `[0, 4]`, both arrangements compute the same squared distance,
  and the guarded square root is the real square root of it.
-/

noncomputable section

namespace Cert.Triplet

open Idealize.ShloMosaic

/-- A finite sum of reals, read in the extended reals, is the sum of the readings. -/
theorem coe_sum {ι : Type*} (s : Finset ι) (f : ι → ℝ) :
    ((∑ k ∈ s, f k : ℝ) : EReal) = ∑ k ∈ s, (f k : EReal) := by
  classical
  refine Finset.induction_on s ?_ ?_
  · simp
  · intro a s ha ih
    rw [Finset.sum_insert ha, Finset.sum_insert ha, EReal.coe_add, ih]

/-- For unit vectors `0 ≤ ∑ (a + b)² = 2 + 2 a·b`, so `a·b ≥ -1`. -/
theorem dot_ge_neg_one (a b : Fin 128 → ℝ) (ha : ∑ k, a k * a k = 1) (hb : ∑ k, b k * b k = 1) :
    -1 ≤ ∑ k, a k * b k := by
  have h := Finset.sum_nonneg (s := Finset.univ) (fun k _ => mul_self_nonneg (a k + b k))
  have e : ∀ k, (a k + b k) * (a k + b k) = a k * a k + 2 * (a k * b k) + b k * b k := fun k => by ring
  simp only [e, Finset.sum_add_distrib, ← Finset.mul_sum] at h
  linarith

/-- The squared distances of row `i` to all rows are reals in `[0, 4]`; the distances-first arrangement takes
    their real square roots. -/
theorem exists_rho (x : Fin 8192 → Fin 128 → EReal) (hx : ∀ i k, ∃ r : ℝ, x i k = (r : EReal))
    (hu : ∀ i, ∑ k : Fin 128, x i k * x i k = 1) (i : Fin 8192) :
    ∃ ρ : Fin 8192 → ℝ, (∀ j, 0 ≤ ρ j) ∧ (∀ j, ρ j ≤ 4) ∧ (∀ j, d2K x i j = (ρ j : EReal)) ∧
      (∀ j, distR x i j = ((Real.sqrt (ρ j) : ℝ) : EReal)) := by
  choose r hr using hx
  have hur : ∀ i, ∑ k, r i k * r i k = 1 := by
    intro i
    have h := hu i
    simp only [hr, ← EReal.coe_mul, ← coe_sum] at h
    exact EReal.coe_eq_one.mp h
  have hsqn : ∀ j, sqn x j = 1 := by
    intro j
    rw [sqn, hu j, ZERO_eq, zero_add]
  have hdot : ∀ j, dot x i j = ((∑ k, r i k * r j k : ℝ) : EReal) := by
    intro j
    simp only [dot, hr, ← EReal.coe_mul, ← coe_sum]
  have htwo : (2 : EReal) = ((2 : ℝ) : EReal) := by norm_cast
  have hd : ∀ j, d2K x i j = ((max (2 - 2 * ∑ k, r i k * r j k) 0 : ℝ) : EReal) := by
    intro j
    rw [d2K, hdot, TWO_eq, ZERO_eq, htwo, ← EReal.coe_mul, ← EReal.coe_sub, ← EReal.coe_zero]
    exact (EReal.coe_strictMono.monotone.map_max).symm
  have h0 : ∀ j, 0 ≤ max (2 - 2 * ∑ k, r i k * r j k) 0 := fun j => le_max_right _ _
  refine ⟨fun j => max (2 - 2 * ∑ k, r i k * r j k) 0, h0, ?_, hd, ?_⟩
  · intro j
    have := dot_ge_neg_one (r i) (r j) (hur i) (hur j)
    exact max_le (by linarith) (by norm_num)
  · intro j
    show distR x i j = ((Real.sqrt (max (2 - 2 * ∑ k, r i k * r j k) 0) : ℝ) : EReal)
    have hRK : d2R x i j = d2K x i j := by
      rw [d2R, d2K, hsqn i, hsqn j, TWO_eq, one_add_one_eq_two]
    rw [distR, hRK, hd j, ZERO_eq, ONE_eq]
    by_cases hpos : 0 < max (2 - 2 * ∑ k, r i k * r j k) 0
    · have hpos' : (0 : EReal) < ((max (2 - 2 * ∑ k, r i k * r j k) 0 : ℝ) : EReal) :=
        EReal.coe_pos.mpr hpos
      rw [if_pos hpos', if_pos hpos', Ideal.sqrt_coe, if_neg (not_lt.mpr hpos.le)]
    · have hz : max (2 - 2 * ∑ k, r i k * r j k) 0 = 0 := le_antisymm (not_lt.mp hpos) (h0 j)
      rw [hz, EReal.coe_zero, if_neg (lt_irrefl _), Real.sqrt_zero, EReal.coe_zero]

end Cert.Triplet

end
-- ==== Proof.RowMathB.lean ====
import proofs.«114721_j26319559590784_2_alg».proof.Proof.Spec

/-!
  The four stretches of 2048 columns cover the 8192 columns: column `j` is column `j % 2048` of stretch
  `j / 2048`.  Hence a running maximum (minimum) carried across the four stretch-wise suprema (infima) is the
  maximum (minimum) of its start value and the supremum (infimum) over all columns.
-/

noncomputable section

namespace Cert.Triplet

/-- Every column lies in one of the four stretches. -/
theorem col_surj (j : Fin 8192) : ∃ c q, col c q = j := by
  refine ⟨⟨j.val / 2048, by have := j.isLt; omega⟩, ⟨j.val % 2048, Nat.mod_lt _ (by norm_num)⟩, ?_⟩
  apply Fin.ext
  simp only [col]
  omega

/-- The running maximum over the four stretches is the maximum with the supremum over all columns. -/
theorem stretches_sup (g : Fin 8192 → EReal) (a : EReal) :
    max (max (max (max a (⨆ q, g (col 0 q))) (⨆ q, g (col 1 q))) (⨆ q, g (col 2 q))) (⨆ q, g (col 3 q))
      = max a (⨆ j, g j) := by
  apply le_antisymm
  · refine max_le (max_le (max_le (max_le (le_max_left _ _) ?_) ?_) ?_) ?_ <;>
      exact le_max_of_le_right (iSup_le fun q => le_iSup g _)
  · refine max_le ?_ (iSup_le fun j => ?_)
    · exact le_max_of_le_left (le_max_of_le_left (le_max_of_le_left (le_max_left _ _)))
    · obtain ⟨c, q, rfl⟩ := col_surj j
      fin_cases c
      · exact le_max_of_le_left (le_max_of_le_left (le_max_of_le_left
          (le_max_of_le_right (le_iSup (fun q => g (col 0 q)) q))))
      · exact le_max_of_le_left (le_max_of_le_left
          (le_max_of_le_right (le_iSup (fun q => g (col 1 q)) q)))
      · exact le_max_of_le_left (le_max_of_le_right (le_iSup (fun q => g (col 2 q)) q))
      · exact le_max_of_le_right (le_iSup (fun q => g (col 3 q)) q)

/-- The running minimum over the four stretches is the minimum with the infimum over all columns. -/
theorem stretches_inf (g : Fin 8192 → EReal) (b : EReal) :
    min (min (min (min b (⨅ q, g (col 0 q))) (⨅ q, g (col 1 q))) (⨅ q, g (col 2 q))) (⨅ q, g (col 3 q))
      = min b (⨅ j, g j) := by
  apply le_antisymm
  · refine le_min ?_ (le_iInf fun j => ?_)
    · exact min_le_of_left_le (min_le_of_left_le (min_le_of_left_le (min_le_left _ _)))
    · obtain ⟨c, q, rfl⟩ := col_surj j
      fin_cases c
      · exact min_le_of_left_le (min_le_of_left_le (min_le_of_left_le
          (min_le_of_right_le (iInf_le (fun q => g (col 0 q)) q))))
      · exact min_le_of_left_le (min_le_of_left_le
          (min_le_of_right_le (iInf_le (fun q => g (col 1 q)) q)))
      · exact min_le_of_left_le (min_le_of_right_le (iInf_le (fun q => g (col 2 q)) q))
      · exact min_le_of_right_le (iInf_le (fun q => g (col 3 q)) q)
  · refine le_min (le_min (le_min (le_min (min_le_left _ _) ?_) ?_) ?_) ?_ <;>
      exact min_le_of_right_le (le_iInf fun q => iInf_le g _)

/-- The kernel's running maximum is the maximum of the stand-in and the supremum over all columns. -/
theorem hpK_eq (x : Fin 8192 → Fin 128 → EReal) (lab : Fin 8192 → BitVec 32) (i : Fin 8192) :
    hpK x lab i = max NEG (⨆ j, if posM lab i j then d2K x i j else NEG) :=
  stretches_sup (fun j => if posM lab i j then d2K x i j else NEG) NEG

/-- The kernel's running minimum is the minimum of the stand-in and the infimum over all columns. -/
theorem hnK_eq (x : Fin 8192 → Fin 128 → EReal) (lab : Fin 8192 → BitVec 32) (i : Fin 8192) :
    hnK x lab i = min POS (⨅ j, if negM lab i j then d2K x i j else POS) :=
  stretches_inf (fun j => if negM lab i j then d2K x i j else POS) POS

end Cert.Triplet

end
-- ==== Proof.RowMathC.lean ====
import proofs.«114721_j26319559590784_2_alg».proof.Proof.Spec

/-!
  Suprema and infima of finitely many real entries, where the excluded places carry a stand-in value.

  Over a finite index set a real-valued family attains its maximum over the admitted places; the square root
  is monotone, so the same place attains the maximum of the square roots.  A stand-in that lies below (above)
  every admitted entry does not change the supremum (infimum) once one place is admitted.
-/

noncomputable section

namespace Cert.Triplet

variable {ι : Type*} [Fintype ι]

/-- A family dominated by one of its entries has that entry as its supremum. -/
theorem iSup_eq_of_forall_le {f : ι → EReal} (p : ι) (h : ∀ j, f j ≤ f p) : (⨆ j, f j) = f p :=
  le_antisymm (iSup_le h) (le_iSup f p)

/-- A family minorised by one of its entries has that entry as its infimum. -/
theorem iInf_eq_of_forall_ge {f : ι → EReal} (n : ι) (h : ∀ j, f n ≤ f j) : (⨅ j, f j) = f n :=
  le_antisymm (iInf_le f n) (le_iInf h)

/-- With one place admitted, the supremum of the admitted entries (stand-in `a ≤ 0` elsewhere, entries `≥ 0`)
    is the entry at a maximiser, and the supremum of the square roots is the square root there. -/
theorem sup_exists (P : ι → Prop) [DecidablePred P] (ρ : ι → ℝ) (h0 : ∀ j, 0 ≤ ρ j) (a : EReal) (ha : a ≤ 0)
    (hP : ∃ j, P j) :
    ∃ p, P p ∧ (⨆ j, if P j then (ρ j : EReal) else a) = (ρ p : EReal) ∧
      (⨆ j, if P j then ((Real.sqrt (ρ j) : ℝ) : EReal) else a) = ((Real.sqrt (ρ p) : ℝ) : EReal) := by
  obtain ⟨j0, hj0⟩ := hP
  obtain ⟨p, hp, hmax⟩ := Finset.exists_max_image (Finset.univ.filter P) ρ ⟨j0, by simp [hj0]⟩
  have hPp : P p := (Finset.mem_filter.mp hp).2
  refine ⟨p, hPp, ?_, ?_⟩
  · have key := iSup_eq_of_forall_le (f := fun j => if P j then (ρ j : EReal) else a) p (by
      intro j
      by_cases hj : P j
      · simp only [if_pos hj, if_pos hPp]
        exact EReal.coe_le_coe_iff.mpr (hmax j (by simp [hj]))
      · simp only [if_neg hj, if_pos hPp]
        exact ha.trans (EReal.coe_nonneg.mpr (h0 p)))
    simpa only [if_pos hPp] using key
  · have key := iSup_eq_of_forall_le
      (f := fun j => if P j then ((Real.sqrt (ρ j) : ℝ) : EReal) else a) p (by
      intro j
      by_cases hj : P j
      · simp only [if_pos hj, if_pos hPp]
        exact EReal.coe_le_coe_iff.mpr (Real.sqrt_le_sqrt (hmax j (by simp [hj])))
      · simp only [if_neg hj, if_pos hPp]
        exact ha.trans (EReal.coe_nonneg.mpr (Real.sqrt_nonneg _)))
    simpa only [if_pos hPp] using key

/-- With no place admitted, the running maximum started at the stand-in stays there. -/
theorem max_sup_none (P : ι → Prop) [DecidablePred P] (f : ι → EReal) (a : EReal) (hP : ¬ ∃ j, P j) :
    max a (⨆ j, if P j then f j else a) = a := by
  apply max_eq_left
  apply iSup_le
  intro j
  rw [if_neg (fun h => hP ⟨j, h⟩)]

/-- With one place admitted, the infimum of the admitted entries (stand-in `b` above every entry and every
    square root elsewhere) is the entry at a minimiser, and the infimum of the square roots is the square root there. -/
theorem inf_exists (N : ι → Prop) [DecidablePred N] (ρ : ι → ℝ) (b : EReal)
    (hb : ∀ j, (ρ j : EReal) ≤ b) (hb' : ∀ j, ((Real.sqrt (ρ j) : ℝ) : EReal) ≤ b) (hN : ∃ j, N j) :
    ∃ n, N n ∧ (⨅ j, if N j then (ρ j : EReal) else b) = (ρ n : EReal) ∧
      (⨅ j, if N j then ((Real.sqrt (ρ j) : ℝ) : EReal) else b) = ((Real.sqrt (ρ n) : ℝ) : EReal) := by
  obtain ⟨j0, hj0⟩ := hN
  obtain ⟨n, hn, hmin⟩ := Finset.exists_min_image (Finset.univ.filter N) ρ ⟨j0, by simp [hj0]⟩
  have hNn : N n := (Finset.mem_filter.mp hn).2
  refine ⟨n, hNn, ?_, ?_⟩
  · have key := iInf_eq_of_forall_ge (f := fun j => if N j then (ρ j : EReal) else b) n (by
      intro j
      by_cases hj : N j
      · simp only [if_pos hj, if_pos hNn]
        exact EReal.coe_le_coe_iff.mpr (hmin j (by simp [hj]))
      · simp only [if_neg hj, if_pos hNn]
        exact hb n)
    simpa only [if_pos hNn] using key
  · have key := iInf_eq_of_forall_ge
      (f := fun j => if N j then ((Real.sqrt (ρ j) : ℝ) : EReal) else b) n (by
      intro j
      by_cases hj : N j
      · simp only [if_pos hj, if_pos hNn]
        exact EReal.coe_le_coe_iff.mpr (Real.sqrt_le_sqrt (hmin j (by simp [hj])))
      · simp only [if_neg hj, if_pos hNn]
        exact hb' n)
    simpa only [if_pos hNn] using key

/-- With no place admitted, the running minimum started at the stand-in stays there. -/
theorem min_inf_none (N : ι → Prop) [DecidablePred N] (f : ι → EReal) (b : EReal) (hN : ¬ ∃ j, N j) :
    min b (⨅ j, if N j then f j else b) = b := by
  apply min_eq_left
  apply le_iInf
  intro j
  rw [if_neg (fun h => hN ⟨j, h⟩)]

end Cert.Triplet

end
-- ==== Proof.RowMath.lean ====
import proofs.«114721_j26319559590784_2_alg».proof.Proof.Spec
import proofs.«114721_j26319559590784_2_alg».proof.Proof.Consts
import proofs.«114721_j26319559590784_2_alg».proof.Proof.RowMathA
import proofs.«114721_j26319559590784_2_alg».proof.Proof.RowMathB
import proofs.«114721_j26319559590784_2_alg».proof.Proof.RowMathC

/-!
  One anchor row: the loss computed from squared distances scanned in four stretches equals the loss computed
  from the distances over all columns.

  The squared distances `ρ j` of the anchor to the rows are reals in `[0, 4]`, far inside the stand-ins
  `∓1e30` and their halves.  The running maximum over the positives therefore leaves the lower stand-in exactly
  when a positive exists, and then it is `ρ p` at a maximiser `p`; as the square root is monotone, `√(ρ p)` is the
  largest distance to a positive.  Dually for the negatives and the upper stand-in.
-/

noncomputable section

namespace Cert.Triplet

open Idealize.ShloMosaic

theorem kerRow_eq_refRow (x : Fin 8192 → Fin 128 → EReal) (lab : Fin 8192 → BitVec 32)
    (hx : ∀ i k, ∃ r : ℝ, x i k = (r : EReal)) (hu : ∀ i, ∑ k : Fin 128, x i k * x i k = 1) (i : Fin 8192) :
    kerRow x lab i = refRow x lab i := by
  obtain ⟨ρ, h0, h4, hd, hs⟩ := exists_rho x hx hu i
  -- the stand-ins against the range [0, 4] of the squared distances
  have hNEG0 : NEG ≤ 0 := by
    rw [NEG_eq]
    exact (EReal.coe_neg'.mpr (by norm_num)).le
  have hNEGH_NEG : ¬ NEGH < NEG := by
    rw [NEGH_eq, NEG_eq, EReal.coe_lt_coe_iff]
    norm_num
  have hPOS_POSH : ¬ POS < POSH := by
    rw [POS_eq, POSH_eq, EReal.coe_lt_coe_iff]
    norm_num
  have hNEGH_lt : ∀ j, NEGH < (ρ j : EReal) := by
    intro j
    rw [NEGH_eq, EReal.coe_lt_coe_iff]
    exact lt_of_lt_of_le (by norm_num) (h0 j)
  have hlt_POSH : ∀ j, (ρ j : EReal) < POSH := by
    intro j
    rw [POSH_eq, EReal.coe_lt_coe_iff]
    exact lt_of_le_of_lt (h4 j) (by norm_num)
  have hle_POS : ∀ j, (ρ j : EReal) ≤ POS := by
    intro j
    rw [POS_eq, EReal.coe_le_coe_iff]
    exact le_trans (h4 j) (by norm_num)
  have hsq_le_POS : ∀ j, ((Real.sqrt (ρ j) : ℝ) : EReal) ≤ POS := by
    intro j
    rw [POS_eq, EReal.coe_le_coe_iff]
    exact Real.sqrt_le_iff.mpr ⟨by norm_num, le_trans (h4 j) (by norm_num)⟩
  rw [kerRow, hpK_eq, hnK_eq]
  simp only [hd]
  unfold refRow
  simp only [hs]
  by_cases hP : ∃ j, posM lab i j
  · by_cases hN : ∃ j, negM lab i j
    · -- a positive and a negative exist: both extremes are attained
      obtain ⟨p, _, hp1, hp2⟩ := sup_exists (posM lab i) ρ h0 NEG hNEG0 hP
      obtain ⟨n, _, hn1, hn2⟩ := inf_exists (negM lab i) ρ POS hle_POS hsq_le_POS hN
      have hhp : max NEG (ρ p : EReal) = ρ p :=
        max_eq_right (hNEG0.trans (EReal.coe_nonneg.mpr (h0 p)))
      have hhn : min POS (ρ n : EReal) = ρ n := min_eq_right (hle_POS n)
      have e1 : Ideal.sqrt (max (ρ p : EReal) ZERO) = ((Real.sqrt (ρ p) : ℝ) : EReal) := by
        rw [ZERO_eq, max_eq_left (EReal.coe_nonneg.mpr (h0 p)), Ideal.sqrt_coe, if_neg (not_lt.mpr (h0 p))]
      have e2 : Ideal.sqrt (max (ρ n : EReal) ZERO) = ((Real.sqrt (ρ n) : ℝ) : EReal) := by
        rw [ZERO_eq, max_eq_left (EReal.coe_nonneg.mpr (h0 n)), Ideal.sqrt_coe, if_neg (not_lt.mpr (h0 n))]
      have hboth : (∃ j, posM lab i j) ∧ (∃ j, negM lab i j) := And.intro hP hN
      have htest : NEGH < (ρ p : EReal) ∧ (ρ n : EReal) < POSH := And.intro (hNEGH_lt p) (hlt_POSH n)
      rw [if_pos hboth, hp1, hp2, hn1, hn2, hhp, hhn, rowOfExtremes, if_pos htest, e1, e2]
    · -- no negative: the running minimum stays at the upper stand-in
      have hnot : ¬ ((∃ j, posM lab i j) ∧ (∃ j, negM lab i j)) := fun h => hN h.2
      rw [if_neg hnot, min_inf_none _ _ _ hN, rowOfExtremes,
        if_neg (not_and_of_not_right _ hPOS_POSH)]
  · -- no positive: the running maximum stays at the lower stand-in
    have hnot : ¬ ((∃ j, posM lab i j) ∧ (∃ j, negM lab i j)) := fun h => hP h.1
    rw [if_neg hnot, max_sup_none _ _ _ hP, rowOfExtremes,
      if_neg (not_and_of_not_left _ hNEGH_NEG)]

end Cert.Triplet

end
-- ==== Proof.Norm.lean ====
import proofs.«114721_j26319559590784_2_alg».proof.Proof.Spec
import proofs.«114721_j26319559590784_2_alg».proof.Proof.Consts

/-! Rows divided by their norm: when the raw entries are real and no row vanishes, the normalised entries are real
    and each normalised row has squared length one. -/

noncomputable section

namespace Cert.Triplet

open Idealize.ShloMosaic

/-- The inclusion of the reals in the extended reals commutes with finite sums. -/
theorem coe_finsum {ι : Type} (s : Finset ι) (f : ι → ℝ) :
    ((∑ k ∈ s, f k : ℝ) : EReal) = ∑ k ∈ s, (f k : EReal) := by
  classical
  refine Finset.induction_on s ?_ ?_
  · simp
  · intro b t hb ih
    rw [Finset.sum_insert hb, Finset.sum_insert hb, EReal.coe_add, ih]

/-- The sum of the squares of a row of reals is the real sum of squares. -/
theorem sumsq_coe (a : Fin 8192 → Fin 128 → EReal) (r : Fin 8192 → Fin 128 → ℝ)
    (hr : ∀ i k, a i k = (r i k : EReal)) (i : Fin 8192) :
    ∑ k : Fin 128, a i k * a i k = ((∑ k : Fin 128, r i k * r i k : ℝ) : EReal) := by
  rw [coe_finsum]
  refine Finset.sum_congr rfl (fun k _ => ?_)
  rw [hr, EReal.coe_mul]

/-- The squared norm of a row of reals, the zero word included. -/
theorem sqn_coe (a : Fin 8192 → Fin 128 → EReal) (r : Fin 8192 → Fin 128 → ℝ)
    (hr : ∀ i k, a i k = (r i k : EReal)) (i : Fin 8192) :
    sqn a i = ((∑ k : Fin 128, r i k * r i k : ℝ) : EReal) := by
  rw [sqn, ZERO_eq, zero_add, sumsq_coe a r hr i]

/-- A normalised entry is the real quotient of the entry by the row's norm. -/
theorem xn_coe (a : Fin 8192 → Fin 128 → EReal) (r : Fin 8192 → Fin 128 → ℝ)
    (hr : ∀ i k, a i k = (r i k : EReal)) (hS : ∀ i, 0 < ∑ k : Fin 128, r i k * r i k)
    (i : Fin 8192) (k : Fin 128) :
    xn a i k = ((r i k / Real.sqrt (∑ k : Fin 128, r i k * r i k) : ℝ) : EReal) := by
  have hn : Real.sqrt (∑ k : Fin 128, r i k * r i k) ≠ 0 := (Real.sqrt_pos.2 (hS i)).ne'
  rw [xn, sqn_coe a r hr i, Ideal.sqrt_coe, if_neg (not_lt.2 (hS i).le), Ideal.div_coe hn, hr,
    ← EReal.coe_mul, mul_one_div]

/-- The real sums of squares are positive when the extended-real ones are. -/
theorem sumsq_pos (a : Fin 8192 → Fin 128 → EReal) (r : Fin 8192 → Fin 128 → ℝ)
    (hr : ∀ i k, a i k = (r i k : EReal)) (hpos : ∀ i, (0 : EReal) < ∑ k : Fin 128, a i k * a i k)
    (i : Fin 8192) : 0 < ∑ k : Fin 128, r i k * r i k := by
  have h := hpos i
  rw [sumsq_coe a r hr i] at h
  exact EReal.coe_pos.1 h

/-- A row of reals divided by the square root of its positive sum of squares has sum of squares one. -/
theorem real_unit (v : Fin 128 → ℝ) (hS : 0 < ∑ k : Fin 128, v k * v k) :
    ∑ k : Fin 128, v k / Real.sqrt (∑ k : Fin 128, v k * v k) * (v k / Real.sqrt (∑ k : Fin 128, v k * v k)) = 1 := by
  have hsq : Real.sqrt (∑ k : Fin 128, v k * v k) * Real.sqrt (∑ k : Fin 128, v k * v k)
      = ∑ k : Fin 128, v k * v k := Real.mul_self_sqrt hS.le
  have h1 : ∀ k : Fin 128, v k / Real.sqrt (∑ k : Fin 128, v k * v k) * (v k / Real.sqrt (∑ k : Fin 128, v k * v k))
      = v k * v k / (∑ k : Fin 128, v k * v k) := by
    intro k
    rw [div_mul_div_comm, hsq]
  rw [Finset.sum_congr rfl (fun k _ => h1 k), ← Finset.sum_div, div_self hS.ne']

theorem xn_real (a : Fin 8192 → Fin 128 → EReal) (ha : ∀ i k, ∃ r : ℝ, a i k = (r : EReal))
    (hpos : ∀ i, (0 : EReal) < ∑ k : Fin 128, a i k * a i k) (i : Fin 8192) (k : Fin 128) :
    ∃ r : ℝ, xn a i k = (r : EReal) := by
  choose r hr using ha
  exact ⟨_, xn_coe a r hr (sumsq_pos a r hr hpos) i k⟩

theorem xn_unit (a : Fin 8192 → Fin 128 → EReal) (ha : ∀ i k, ∃ r : ℝ, a i k = (r : EReal))
    (hpos : ∀ i, (0 : EReal) < ∑ k : Fin 128, a i k * a i k) (i : Fin 8192) :
    ∑ k : Fin 128, xn a i k * xn a i k = 1 := by
  choose r hr using ha
  have hS := sumsq_pos a r hr hpos
  have h1 : ∀ k : Fin 128, xn a i k * xn a i k
      = ((r i k / Real.sqrt (∑ k : Fin 128, r i k * r i k)
          * (r i k / Real.sqrt (∑ k : Fin 128, r i k * r i k)) : ℝ) : EReal) := by
    intro k
    rw [xn_coe a r hr hS i k, EReal.coe_mul]
  rw [Finset.sum_congr rfl (fun k _ => h1 k), ← coe_finsum, real_unit (r i) (hS i), EReal.coe_one]

end Cert.Triplet

end
-- ==== Proof.PreFacts.lean ====
import proofs.«114721_j26319559590784_2_alg».proof.Proof.Spec
import proofs.«114721_j26319559590784_2_alg».proof.Pre_finite_inputs
import Idealize.ShloMosaic.Lib.ReduceAll
import Idealize.ShloMosaic.Lib.ValueIdx
import Idealize.ShloMosaic.PureOps.Ideal.Laws

/-! What the precondition on the inputs says: every entry of the array is a real number, and every row has a
    positive sum of squares. -/

noncomputable section

namespace Cert.Triplet

open Idealize.ShloMosaic Idealize.ShloMosaic.ValueIdx

variable [Cert.Pre_finite_inputs.Facts]

/-- The scalar shape has one index. -/
instance subsingleton_scalar_idx : Subsingleton Cert.Pre_finite_inputs.S_.Idx := ⟨fun a b => funext fun d => d.elim0⟩

/-- The f32 word with all exponent bits set and no fraction bit is `+∞`. -/
theorem ofBits_inf_f32 : Ideal.ofBits .f32 0x7F800000#32 = (⊤ : EReal) := by simp [Ideal.ofBits, Ideal.ieee]

/-- An extended real whose absolute value `max x (-x)` compares below `+∞` is a real number. -/
theorem real_of_abs_lt_inf (x : EReal)
    (hx : Ideal.cmp .olt (max x (-x)) (Ideal.ofBits .f32 0x7F800000#32) = 1#1) : ∃ r : ℝ, x = (r : EReal) := by
  rw [ofBits_inf_f32] at hx
  have hlt : max x (-x) < ⊤ := by
    by_contra hn
    simp [Ideal.cmp, hn] at hx
  induction x using EReal.rec with
  | bot => simp at hlt
  | top => simp at hlt
  | coe r => exact ⟨r, rfl⟩

/-- The comparison "greater than" that came out true is the strict order. -/
theorem lt_of_cmp_ogt (a b : EReal) (h : Ideal.cmp .ogt a b = 1#1) : b < a := by
  by_contra hn
  simp [Ideal.cmp, hn] at h

/-- The sum along the second axis, read at row `i`: the initial value plus the sum of the row's 128 entries. -/
theorem pre_rowsum_apply (y : FVec Ideal Cert.Pre_finite_inputs.S8192x128 .f32) (c : FVec Ideal Cert.Pre_finite_inputs.S_ .f32)
    (i : Fin 8192) :
    Host.reduceAdd y c Cert.Pre_finite_inputs.Facts.reducesTo_S8192x128_S8192_d1 Cert.Pre_finite_inputs.Facts.h_S_ (ix1 i)
      = c (Shape.Idx.first Cert.Pre_finite_inputs.Facts.h_S_) + ∑ k : Fin 128, y (ix2 i k) := by
  simp only [Host.reduceAdd, Ideal.hostReduceAdd_def]
  rw [Ideal.hostReduceAdd_single Cert.Pre_finite_inputs.Facts.reducesTo_S8192x128_S8192_d1 (by decide)]
  refine congrArg (_ + ·) (Finset.sum_congr rfl fun k _ => ?_)
  exact congrArg y (funext fun a => Fin.ext (by match a with | ⟨0, _⟩ => rfl | ⟨1, _⟩ => rfl))

/-- The precondition read back: the entries are real numbers and each row's sum of squares is positive. -/
theorem pre_facts (x0 : FVec Ideal Cert.Pre_finite_inputs.S8192x128 .f32) (x1 : IVec Cert.Pre_finite_inputs.S8192x1 32)
    (h : Cert.Pre_finite_inputs.fn (F := Ideal) x0 x1 = fun _ => 1#1) :
    (∀ (i : Fin 8192) (k : Fin 128), ∃ r : ℝ, x0 (ix2 i k) = (r : EReal)) ∧
      (∀ i : Fin 8192, (0 : EReal) < ∑ k : Fin 128, x0 (ix2 i k) * x0 (ix2 i k)) := by
  have h0 := congrFun h ix0
  dsimp only [Cert.Pre_finite_inputs.fn] at h0
  obtain ⟨h3, h8⟩ := IntOp.andi_eq_one.1 h0
  refine ⟨fun i k => ?_, fun i => ?_⟩
  · -- the entry's absolute value is below +∞
    have e := Host.reduce_andi_all _ _ _ _ _ h3 (ix2 i k)
    exact real_of_abs_lt_inf _ e
  · -- the row's sum of squares, from the zero word, is above the zero word
    have e := Host.reduce_andi_all _ _ _ _ _ h8 (ix1 i)
    have e' := lt_of_cmp_ogt _ _ e
    rw [pre_rowsum_apply] at e'
    have e'' : Ideal.ofBits .f32 0x00000000#32
        < Ideal.ofBits .f32 0x00000000#32 + ∑ k : Fin 128, x0 (ix2 i k) * x0 (ix2 i k) := e'
    rw [Ideal.ofBits_zero_f32, zero_add] at e''
    exact e''

end Cert.Triplet

end
-- ==== Proof.Bridge.lean ====
import proofs.«114721_j26319559590784_2_alg».proof.Proof.KerRun
import proofs.«114721_j26319559590784_2_alg».proof.Proof.RefRead
import proofs.«114721_j26319559590784_2_alg».proof.Proof.RefTail
import proofs.«114721_j26319559590784_2_alg».proof.Proof.RowMath
import proofs.«114721_j26319559590784_2_alg».proof.Proof.Norm
import proofs.«114721_j26319559590784_2_alg».proof.Proof.PreFacts
import proofs.«114721_j26319559590784_2_alg».proof.Proof.Gen.Pre_finite_inputs

/-!
  The two programs return the same loss.

  Under the precondition every entry of the argument array is a real number and every row has a positive sum of
  squares, so the normalised rows are real and of unit norm; for such rows the two arrangements of an anchor's loss
  agree, and both programs average the per-anchor losses in the same way.
-/

noncomputable section

namespace Cert.Triplet

open Idealize.ShloMosaic Idealize.ShloMosaic.TcCoe Idealize.ShloMosaic.ValueIdx Idealize.SL.Sem
open Cert.KernelIdeal Cert.KernelIdeal.Gen

variable (m : (ℓ : Loc nD τ sig) → Buf (Elt Ideal) ℓ)

/-- The reference's result on the kernel's argument arrays is the kernel's loss. -/
theorem ref_eq_ker (c : Dev nD)
    (hpre : Cert.Pre_finite_inputs.fn (F := Ideal) (m ((c.tc : Thread nD τ).loc main_arg0)) (m ((c.tc : Thread nD τ).loc main_arg1)) = fun _ => 1#1) :
    Cert.ReferenceIdeal.Read.val_main_v58 (F := Ideal) (m ((c.tc : Thread nD τ).loc main_arg0)) (m ((c.tc : Thread nD τ).loc main_arg1))
      = kerLoss m c := by
  obtain ⟨hreal, hpos⟩ := pre_facts _ _ hpre
  rw [ref_tail]
  unfold kerLoss
  refine congrArg (lossTail bcast_S_S8192 reducesTo_S8192_S_d0 h_S_ natLt_1_32) ?_
  funext i
  obtain ⟨j, rfl⟩ : ∃ j : Fin 8192, i = ix1 j := ⟨i 0, eq_ix1 i⟩
  rw [val_v50_row]
  exact (kerRow_eq_refRow (rowsOf m c) (labelsOf m c) (xn_real _ hreal hpos) (xn_unit _ hreal hpos) j).symm

end Cert.Triplet

end
-- ==== Proof.lean ====
/-
  The triplet-margin loss kernel against its reference: the certificate's five claims.

  Both programs divide each of the 8192 rows by its norm and, for every anchor row, take the hardest positive (the
  farthest row with the anchor's label) and the hardest negative (the nearest row with another label); an anchor with
  both contributes `max (d⁺ - d⁻ + margin) 0`, and the result is the mean of the positive contributions.  The reference
  forms all distances `√(max (|xᵢ|² + |xⱼ|² - 2 xᵢ·xⱼ) 0)` and reduces them; the kernel scans squared distances
  `max (2 - 2 xᵢ·xⱼ) 0` in four stretches of 2048 columns from finite stand-ins for the infinities, takes the square root
  of the two extremes only, and tells from the stand-ins whether a positive and a negative were met.  Over the extended
  reals the two agree where every entry is finite and no row vanishes: the rows are then of norm exactly one, the
  squared distances lie in `[0, 4]`, the square root is monotone, and the stand-ins `±1e30`, `±5e29` are far outside that
  range.  The kernel's frames are the generated ones; the reference's is its generated run with the result dropped; the
  ideal pass rewrote nothing.
-/
import proofs.«114721_j26319559590784_2_alg».proof.Defs
import proofs.«114721_j26319559590784_2_alg».proof.Proof.Gen.Kernel
import proofs.«114721_j26319559590784_2_alg».proof.Proof.Gen.Kernel.Skeleton
import proofs.«114721_j26319559590784_2_alg».proof.Proof.Gen.Kernel.Loops
import proofs.«114721_j26319559590784_2_alg».proof.Proof.Gen.Kernel.Launch
import proofs.«114721_j26319559590784_2_alg».proof.Proof.Gen.Kernel.Points
import proofs.«114721_j26319559590784_2_alg».proof.Proof.Gen.Kernel.Frame
import proofs.«114721_j26319559590784_2_alg».proof.Proof.Gen.KernelIdeal
import proofs.«114721_j26319559590784_2_alg».proof.Proof.Gen.KernelIdeal.Skeleton
import proofs.«114721_j26319559590784_2_alg».proof.Proof.Gen.KernelIdeal.Loops
import proofs.«114721_j26319559590784_2_alg».proof.Proof.Gen.KernelIdeal.Launch
import proofs.«114721_j26319559590784_2_alg».proof.Proof.Gen.KernelIdeal.Points
import proofs.«114721_j26319559590784_2_alg».proof.Proof.Gen.KernelIdeal.Frame
import proofs.«114721_j26319559590784_2_alg».proof.Proof.Gen.ReferenceIdeal
import proofs.«114721_j26319559590784_2_alg».proof.Proof.Gen.ReferenceIdeal.Run
import proofs.«114721_j26319559590784_2_alg».proof.Proof.Gen.ReferenceIdeal.Read
import proofs.«114721_j26319559590784_2_alg».proof.Proof.Gen.Pre_finite_inputs
import proofs.«114721_j26319559590784_2_alg».proof.Proof.Bridge
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The two idealized programs, from memories agreeing on the arguments, end with the same loss. -/
theorem algebraic : Cert.algebraic_KernelIdeal_ReferenceIdeal := by
  intro m ρ m' ρ' hpre hagree
  refine ⟨fun c => Cert.Triplet.kerLoss m c, Cert.Triplet.ker_run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, (hagree c).1, (hagree c).2]
  exact Cert.Triplet.ref_eq_ker m c (hpre c)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
